-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x1 : Shape := ⟨2, ![128, 1]⟩
abbrev S1 : Shape := ⟨1, ![1]⟩
abbrev S128x128 : Shape := ⟨2, ![128, 128]⟩
abbrev S128 : Shape := ⟨1, ![128]⟩
abbrev S40x128 : Shape := ⟨2, ![40, 128]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S40x128 : S_.BroadcastsInDim S40x128 (![] : Fin 0 → Fin S40x128.rank)
  reducesTo_S40x128_S_d0_1 : S40x128.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S40x128 .f32) (main_arg9 : FVec F S40 .f32) (main_v33 : IVec S_ 1) : IVec S_ 1 :=
  let main_v34 : FVec F S40x128 .f32 := Host.absf main_arg8
  let main_cst_12 : FVec F S_ .f32 := constant S_ .f32 0x7F800000#32
  let main_v35 : FVec F S40x128 .f32 := broadcastInDim S40x128 ![] bcast_S_S40x128 main_cst_12
  let main_v36 : IVec S40x128 1 := cmpf .olt main_v34 main_v35
  let main_c_13 : IVec S_ 1 := constantI S_ 1 1#1
  let main_v37 : IVec S_ 1 := (fun x v => Host.reduce IntOp.andi x v reducesTo_S40x128_S_d0_1 h_S_) main_v36 main_c_13
  let main_v38 : IVec S_ 1 := andi main_v33 main_v37
  let main_v39 : FVec F S40 .f32 := Host.absf main_arg9
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg5 : FVec F S128 .f32) (main_arg6 : FVec F S128x1 .f32) (main_arg7 : FVec F S1 .f32) (main_arg8 : FVec F S40x128 .f32) (main_arg9 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg6
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x600000 32) (main_arg2 : FVec F S128x1 .f32) (main_arg3 : FVec F S1 .f32) (main_arg4 : FVec F S128x128 .f32) (main_arg5 : FVec F S128 .f32) (main_arg6 : FVec F S128x1 .f32) (main_arg7 : FVec F S1 .f32) (main_arg8 : FVec F S40x128 .f32) (main_arg9 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x1 .f32 := Host.absf main_arg2
  let main_cst_0 : FVec F S_ .f32 := constant S_ .f32 0x7F800000#32
  let main_v5 : FVec F S128x1 .f32 := broadcastInDim S128x1 ![] bcast_S_S128x1 main_cst_0
  let main_v6 : IVec S128x1 1 := cmpf .olt main_v4 main_v5
  let main_c_1 : IVec S_ 1 := constantI S_ 1 1#1
  let main_v7 : IVec S_ 1 := (fun x v => Host.reduce IntOp.andi x v reducesTo_S128x1_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x600000 : Shape := ⟨2, ![2, 600000]⟩
abbrev S128x1 : Shape := ⟨2, ![128, 1]⟩
abbrev S1 : Shape := ⟨1, ![1]⟩
abbrev S128x128 : Shape := ⟨2, ![128, 128]⟩
abbrev S128 : Shape := ⟨1, ![128]⟩
abbrev S40x128 : Shape := ⟨2, ![40, 128]⟩
abbrev S40 : Shape := ⟨1, ![40]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S2000x128 : Shape := ⟨2, ![2000, 128]⟩
abbrev S2000 : Shape := ⟨1, ![2000]⟩
abbrev S2000x1 : Shape := ⟨2, ![2000, 1]⟩
abbrev S1x1 : Shape := ⟨2, ![1, 1]⟩
abbrev S128x40 : Shape := ⟨2, ![128, 40]⟩
abbrev S50000x40 : Shape := ⟨2, ![50000, 40]⟩
abbrev S2000x40 : Shape := ⟨2, ![2000, 40]⟩
abbrev S1x40 : Shape := ⟨2, ![1, 40]⟩

abbrev nBuf : Space → Nat
  | .hbm => 88
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x1, .f32⟩
  | .hbm, ⟨3, _⟩ => ⟨S1, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S40x128, .f32⟩
  | .hbm, ⟨9, _⟩ => ⟨S40, .f32⟩
  | .hbm, ⟨10, _⟩ => ⟨S50000, .i32⟩
  | .hbm, ⟨11, _⟩ => ⟨S1x600000, .i32⟩
  | .hbm, ⟨12, _⟩ => ⟨S600000, .i32⟩
  | .hbm, ⟨13, _⟩ => ⟨S650000, .i32⟩
  | .hbm, ⟨14, _⟩ => ⟨S1x600000, .i32⟩
  | .hbm, ⟨15, _⟩ => ⟨S600000, .i32⟩
  | .hbm, ⟨16, _⟩ => ⟨S650000, .i32⟩
  | .hbm, ⟨17, _⟩ => ⟨S_, .f32⟩
  | .hbm, ⟨18, _⟩ => ⟨S650000, .f32⟩
  | .hbm, ⟨19, _⟩ => ⟨S_, .f32⟩
  | .hbm, ⟨20, _⟩ => ⟨S50000, .f32⟩
  | .hbm, ⟨21, _⟩ => ⟨S650000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S650000, .i32⟩
  | .hbm, ⟨33, _⟩ => ⟨S650000, .i1⟩
  | .hbm, ⟨34, _⟩ => ⟨S_, .i32⟩
  | .hbm, ⟨35, _⟩ => ⟨S650000, .i32⟩
  | .hbm, ⟨36, _⟩ => ⟨S650000, .i32⟩
  | .hbm, ⟨37, _⟩ => ⟨S650000, .i32⟩
  | .hbm, ⟨38, _⟩ => ⟨S650000x1, .i32⟩
  | .hbm, ⟨39, _⟩ => ⟨S650000, .f32⟩
  | .hbm, ⟨40, _⟩ => ⟨S_, .i32⟩
  | .hbm, ⟨41, _⟩ => ⟨S650000, .i32⟩
  | .hbm, ⟨42, _⟩ => ⟨S650000, .i1⟩
  | .hbm, ⟨43, _⟩ => ⟨S_, .i32⟩
  | .hbm, ⟨44, _⟩ => ⟨S650000, .i32⟩
  | .hbm, ⟨45, _⟩ => ⟨S650000, .i32⟩
  | .hbm, ⟨46, _⟩ => ⟨S650000, .i32⟩
  | .hbm, ⟨47, _⟩ => ⟨S650000x1, .i32⟩
  | .hbm, ⟨48, _⟩ => ⟨S650000, .f32⟩
  | .hbm, ⟨49, _⟩ => ⟨S650000, .f32⟩
  | .hbm, ⟨50, _⟩ => ⟨S650000x1, .f32⟩
  | .hbm, ⟨51, _⟩ => ⟨S_, .i32⟩
  | .hbm, ⟨52, _⟩ => ⟨S650000, .i32⟩
  | .hbm, ⟨53, _⟩ => ⟨S650000, .i1⟩
  | .hbm, ⟨54, _⟩ => ⟨S_, .i32⟩
  | .hbm, ⟨55, _⟩ => ⟨S650000, .i32⟩
  | .hbm, ⟨56, _⟩ => ⟨S650000, .i32⟩
  | .hbm, ⟨57, _⟩ => ⟨S650000, .i32⟩
  | .hbm, ⟨58, _⟩ => ⟨S650000x1, .i32⟩
  | .hbm, ⟨59, _⟩ => ⟨S650000x128, .f32⟩
  | .hbm, ⟨60, _⟩ => ⟨S650000x128, .f32⟩
  | .hbm, ⟨61, _⟩ => ⟨S650000x128, .f32⟩
  | .hbm, ⟨62, _⟩ => ⟨S_, .f32⟩
  | .hbm, ⟨63, _⟩ => ⟨S50000x128, .f32⟩
  | .hbm, ⟨64, _⟩ => ⟨S650000x1, .i32⟩
  | .hbm, ⟨65, _⟩ => ⟨S50000x128, .f32⟩
  | .hbm, ⟨66, _⟩ => ⟨S128x128, .f32⟩
  | .hbm, ⟨67, _⟩ => ⟨S1x128, .f32⟩
  | .hbm, ⟨68, _⟩ => ⟨S50000x128, .f32⟩
  | .hbm, ⟨69, _⟩ => ⟨S650000x1, .f32⟩
  | .hbm, ⟨70, _⟩ => ⟨S_, .i32⟩
  | .hbm, ⟨71, _⟩ => ⟨S650000, .i32⟩
  | .hbm, ⟨72, _⟩ => ⟨S650000, .i1⟩
  | .hbm, ⟨73, _⟩ => ⟨S_, .i32⟩
  | .hbm, ⟨74, _⟩ => ⟨S650000, .i32⟩
  | .hbm, ⟨75, _⟩ => ⟨S650000, .i32⟩
  | .hbm, ⟨76, _⟩ => ⟨S650000, .i32⟩
  | .hbm, ⟨77, _⟩ => ⟨S650000x1, .i32⟩
  | .hbm, ⟨78, _⟩ => ⟨S650000x128, .f32⟩
  | .hbm, ⟨79, _⟩ => ⟨S650000x128, .f32⟩
  | .hbm, ⟨80, _⟩ => ⟨S650000x128, .f32⟩
  | .hbm, ⟨81, _⟩ => ⟨S_, .f32⟩
  | .hbm, ⟨82, _⟩ => ⟨S50000x128, .f32⟩
  | .hbm, ⟨83, _⟩ => ⟨S650000x1, .i32⟩
  | .hbm, ⟨84, _⟩ => ⟨S50000x128, .f32⟩
  | .hbm, ⟨85, _⟩ => ⟨S128x40, .f32⟩
  | .hbm, ⟨86, _⟩ => ⟨S1x128, .f32⟩
  | .hbm, ⟨87, _⟩ => ⟨S50000x40, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S1x128, .f32⟩
  | .local _ .vmem, ⟨5, _⟩ => ⟨S1, .f32⟩
  | .local _ .vmem, ⟨6, _⟩ => ⟨S128x128, .f32⟩
  | .local _ .vmem, ⟨7, _⟩ => ⟨S128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S1x128, .f32⟩
  | .local _ .vmem, ⟨15, _⟩ => ⟨S1, .f32⟩
  | .local _ .vmem, ⟨16, _⟩ => ⟨S128x40, .f32⟩
  | .local _ .vmem, ⟨17, _⟩ => ⟨S40, .f32⟩
  | .local _ .vmem, ⟨18, _⟩ => ⟨S2000x40, .f32⟩
  | .local _ .vmem, ⟨19, _⟩ => ⟨S2000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_9 : Ref sig .tc := ⟨.hbm, 70, rfl⟩
abbrev main_v47 : Ref sig .tc := ⟨.hbm, 71, rfl⟩
abbrev main_v48 : Ref sig .tc := ⟨.hbm, 72, rfl⟩
abbrev main_c_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S40 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x40 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  transposes_S128x128_S128x128_1_0 : S128x128.Transposes [1, 0] S128x128
  transposes_S128x1_S1x128_1_0 : S128x1.Transposes [1, 0] S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1_S1_0 : ∀ a, (![0] : Fin 1 → Nat) a + S1.size a ≤ S1.size a
  h_S1 : 0 < S1.numel
  broadcasts_S1x128_S2000x128 : S1x128.Broadcasts S2000x128
  reduces_S2000x128_S2000 : S2000x128.Reduces [1] S2000
  shapeCasts_S2000_S2000x1 : S2000.ShapeCasts S2000x1
  shapeCasts_S1_S1x1 : S1.ShapeCasts S1x1
  broadcasts_S1x1_S2000x1 : S1x1.Broadcasts S2000x1
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  transposes_S40x128_S128x40_1_0 : S40x128.Transposes [1, 0] S128x40
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S40_S40_0 : ∀ a, (![0] : Fin 1 → Nat) a + S40.size a ≤ S40.size a
  h_S40 : 0 < S40.numel
  shapeCasts_S40_S1x40 : S40.ShapeCasts S1x40
  broadcasts_S1x40_S2000x40 : S1x40.Broadcasts S2000x40
  inb_S2000x40_S2000x40_0_0 : ∀ a, (![0, 0] : Fin 2 → Nat) a + S2000x40.size a ≤ S2000x40.size a
  h_S2000x40 : 0 < S2000x40.numel
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S2000x128_S128x128_S2000x128_1_0_0_1_n_n_wf : DotDims.WF S2000x128 S128x128 S2000x128 [1] [0] [0] [1] [] []
  dot_S2000x128_S128x40_S2000x40_1_0_0_1_n_n_wf : DotDims.WF S2000x128 S128x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1.size a ≤ S1.size a
  hwx0_3 : ∀ i : grid0.Coords, EltTy.bits .f32 = 32 ∨ (Rect.block (s := S1) S1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1.size a ≤ S1.size a
  hwx1_3 : ∀ i : grid1.Coords, EltTy.bits .f32 = 32 ∨ (Rect.block (s := S1) S1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x40.size a ≤ S128x40.size a
  hwx1_4 : ∀ i : grid1.Coords, EltTy.bits .f32 = 32 ∨ (Rect.block (s := S128x40) S128x40.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S40.size a ≤ S40.size a
  hwx1_5 : ∀ i : grid1.Coords, EltTy.bits .f32 = 32 ∨ (Rect.block (s := S40) S40.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x40.size a ≤ S50000x40.size a
  hwx1_6 : ∀ i : grid1.Coords, EltTy.bits .f32 = 32 ∨ (Rect.block (s := S50000x40) S2000x40.size (cc1_transform_6 i) (hinb1_6 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v42) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v44) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v43) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v45) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v45) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v58) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v60) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v59) S128x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S40.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v61) S2000x40.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x1 : Shape := ⟨2, ![128, 1]⟩
abbrev S1 : Shape := ⟨1, ![1]⟩
abbrev S128x128 : Shape := ⟨2, ![128, 128]⟩
abbrev S128 : Shape := ⟨1, ![128]⟩
abbrev S40x128 : Shape := ⟨2, ![40, 128]⟩
abbrev S40 : Shape := ⟨1, ![40]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S50000x1 : Shape := ⟨2, ![50000, 1]⟩
abbrev S1x1 : Shape := ⟨2, ![1, 1]⟩
abbrev S650000x128 : Shape := ⟨2, ![650000, 128]⟩
abbrev S1x128 : Shape := ⟨2, ![1, 128]⟩
abbrev S128x40 : Shape := ⟨2, ![128, 40]⟩
abbrev S50000x40 : Shape := ⟨2, ![50000, 40]⟩
abbrev S1x40 : Shape := ⟨2, ![1, 40]⟩

abbrev nBuf : Space → Nat
  | .hbm => 137
  | .vmem => 0
  | .smem => 0
  | _ => 0

abbrev hbmTy0_0 (i : Nat) : BufTy := match i % 128 with
  | 0 => ⟨S50000x128, .f32⟩
  | 1 => ⟨S2x600000, .i32⟩
  | 2 => ⟨S128x1, .f32⟩
  | 3 => ⟨S1, .f32⟩
  | 4 => ⟨S128x128, .f32⟩
  | 5 => ⟨S128, .f32⟩
  | 6 => ⟨S128x1, .f32⟩
  | 7 => ⟨S1, .f32⟩
  | 8 => ⟨S40x128, .f32⟩
  | 9 => ⟨S40, .f32⟩
  | 10 => ⟨S50000, .i32⟩
  | 11 => ⟨S1x600000, .i32⟩
  | 12 => ⟨S600000, .i32⟩
  | 13 => ⟨S650000, .i32⟩
  | 14 => ⟨S1x600000, .i32⟩
  | 15 => ⟨S600000, .i32⟩
  | 16 => ⟨S650000, .i32⟩
  | 17 => ⟨S_, .f32⟩
  | 18 => ⟨S650000, .f32⟩
  | 19 => ⟨S_, .f32⟩
  | 20 => ⟨S50000, .f32⟩
  | 21 => ⟨S650000x1, .i32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S650000, .i32⟩
  | 33 => ⟨S650000, .i1⟩
  | 34 => ⟨S_, .i32⟩
  | 35 => ⟨S650000, .i32⟩
  | 36 => ⟨S650000, .i32⟩
  | 37 => ⟨S650000, .i32⟩
  | 38 => ⟨S650000x1, .i32⟩
  | 39 => ⟨S650000, .f32⟩
  | 40 => ⟨S_, .i32⟩
  | 41 => ⟨S650000, .i32⟩
  | 42 => ⟨S650000, .i1⟩
  | 43 => ⟨S_, .i32⟩
  | 44 => ⟨S650000, .i32⟩
  | 45 => ⟨S650000, .i32⟩
  | 46 => ⟨S650000, .i32⟩
  | 47 => ⟨S650000x1, .i32⟩
  | 48 => ⟨S650000, .f32⟩
  | 49 => ⟨S650000, .f32⟩
  | 50 => ⟨S50000x1, .f32⟩
  | 51 => ⟨S1x1, .f32⟩
  | 52 => ⟨S50000x1, .f32⟩
  | 53 => ⟨S50000x1, .f32⟩
  | 54 => ⟨S50000x1, .f32⟩
  | 55 => ⟨S50000x1, .f32⟩
  | 56 => ⟨S_, .f32⟩
  | 57 => ⟨S50000x1, .f32⟩
  | 58 => ⟨S50000x1, .f32⟩
  | 59 => ⟨S_, .f32⟩
  | 60 => ⟨S50000x1, .f32⟩
  | 61 => ⟨S50000x1, .f32⟩
  | 62 => ⟨S650000x1, .f32⟩
  | 63 => ⟨S_, .i32⟩
  | 64 => ⟨S650000, .i32⟩
  | 65 => ⟨S650000, .i1⟩
  | 66 => ⟨S_, .i32⟩
  | 67 => ⟨S650000, .i32⟩
  | 68 => ⟨S650000, .i32⟩
  | 69 => ⟨S650000, .i32⟩
  | 70 => ⟨S650000x1, .i32⟩
  | 71 => ⟨S650000x128, .f32⟩
  | 72 => ⟨S650000x128, .f32⟩
  | 73 => ⟨S650000x128, .f32⟩
  | 74 => ⟨S_, .f32⟩
  | 75 => ⟨S50000x128, .f32⟩
  | 76 => ⟨S650000x1, .i32⟩
  | 77 => ⟨S50000x128, .f32⟩
  | 78 => ⟨S50000x128, .f32⟩
  | 79 => ⟨S50000x128, .f32⟩
  | 80 => ⟨S50000x128, .f32⟩
  | 81 => ⟨S_, .f32⟩
  | 82 => ⟨S50000x1, .f32⟩
  | 83 => ⟨S50000x1, .f32⟩
  | 84 => ⟨S50000x128, .f32⟩
  | 85 => ⟨S50000x128, .f32⟩
  | 86 => ⟨S50000x128, .f32⟩
  | 87 => ⟨S128x128, .f32⟩
  | 88 => ⟨S50000x128, .f32⟩
  | 89 => ⟨S1x128, .f32⟩
  | 90 => ⟨S50000x128, .f32⟩
  | 91 => ⟨S50000x128, .f32⟩
  | 92 => ⟨S_, .f32⟩
  | 93 => ⟨S50000x128, .f32⟩
  | 94 => ⟨S50000x128, .f32⟩
  | 95 => ⟨S50000x1, .f32⟩
  | 96 => ⟨S1x1, .f32⟩
  | 97 => ⟨S50000x1, .f32⟩
  | 98 => ⟨S50000x1, .f32⟩
  | 99 => ⟨S50000x1, .f32⟩
  | 100 => ⟨S50000x1, .f32⟩
  | 101 => ⟨S_, .f32⟩
  | 102 => ⟨S50000x1, .f32⟩
  | 103 => ⟨S50000x1, .f32⟩
  | 104 => ⟨S_, .f32⟩
  | 105 => ⟨S50000x1, .f32⟩
  | 106 => ⟨S50000x1, .f32⟩
  | 107 => ⟨S650000x1, .f32⟩
  | 108 => ⟨S_, .i32⟩
  | 109 => ⟨S650000, .i32⟩
  | 110 => ⟨S650000, .i1⟩
  | 111 => ⟨S_, .i32⟩
  | 112 => ⟨S650000, .i32⟩
  | 113 => ⟨S650000, .i32⟩
  | 114 => ⟨S650000, .i32⟩
  | 115 => ⟨S650000x1, .i32⟩
  | 116 => ⟨S650000x128, .f32⟩
  | 117 => ⟨S650000x128, .f32⟩
  | 118 => ⟨S650000x128, .f32⟩
  | 119 => ⟨S_, .f32⟩
  | 120 => ⟨S50000x128, .f32⟩
  | 121 => ⟨S650000x1, .i32⟩
  | 122 => ⟨S50000x128, .f32⟩
  | 123 => ⟨S50000x128, .f32⟩
  | 124 => ⟨S50000x128, .f32⟩
  | 125 => ⟨S50000x128, .f32⟩
  | 126 => ⟨S_, .f32⟩
  | 127 => ⟨S50000x1, .f32⟩
  | _ => ⟨S50000x128, .f32⟩

abbrev hbmTy0_1 (i : Nat) : BufTy := match i % 128 with
  | 0 => ⟨S50000x1, .f32⟩
  | 1 => ⟨S50000x128, .f32⟩
  | 2 => ⟨S50000x128, .f32⟩
  | 3 => ⟨S50000x128, .f32⟩
  | 4 => ⟨S128x40, .f32⟩
  | 5 => ⟨S50000x40, .f32⟩
  | 6 => ⟨S1x40, .f32⟩
  | 7 => ⟨S50000x40, .f32⟩
  | 8 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_6 : Ref sig .tc := ⟨.hbm, 56, rfl⟩
abbrev main_v36 : Ref sig .tc := ⟨.hbm, 57, rfl⟩
abbrev main_v37 : Ref sig .tc := ⟨.hbm, 58, rfl⟩
abbrev main_cst_7 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_c_8 : Ref sig .tc := ⟨.hbm, 63, rfl⟩
abbrev main_v41 : Ref sig .tc := ⟨.hbm, 64, rfl⟩
abbrev main_v42 : Ref sig .tc := ⟨.hbm, 65, rfl⟩
abbrev main_c_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_call1_cst : Ref sig .tc := ⟨.hbm, 92, rfl⟩
abbrev main_call1_v0 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_12 : Ref sig .tc := ⟨.hbm, 101, rfl⟩
abbrev main_v73 : Ref sig .tc := ⟨.hbm, 102, rfl⟩
abbrev main_v74 : Ref sig .tc := ⟨.hbm, 103, rfl⟩
abbrev main_cst_13 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_c_14 : Ref sig .tc := ⟨.hbm, 108, rfl⟩
abbrev main_v78 : Ref sig .tc := ⟨.hbm, 109, rfl⟩
abbrev main_v79 : Ref sig .tc := ⟨.hbm, 110, rfl⟩
abbrev main_c_15 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_16 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_cst_17 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S40x128_S128x40_1_0 : S40x128.Transposes [1, 0] S128x40
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x128_S128x1_S50000x1_1_0_0_1_n_n_wf : DotDims.WF S50000x128 S128x1 S50000x1 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S50000x128_S128x128_S50000x128_1_0_0_1_n_n_wf : DotDims.WF S50000x128 S128x128 S50000x128 [1] [0] [0] [1] [] []
  dot_S50000x128_S128x40_S50000x40_1_0_0_1_n_n_wf : DotDims.WF S50000x128 S128x40 S50000x40 [1] [0] [0] [1] [] []

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.KernelRun.lean ====
/-
  The idealized kernel program's run with every buffer read at the end.

  The program is four stretches of host operations and two kernel launches. Its contents at each boundary are a fold
  from the launch memory: a stretch applies its operations, a launch replaces its arrays by what its write-backs
  leave. The statement here is the launch over those segments with the final state read in full: on every core, every
  buffer that is not scoped to a kernel ends at the last boundary's contents. The frame claim keeps only the
  argument arrays of this; the value claim needs the result array as well, so the post is left whole.
-/
import proofs.«167398_j10213432229977_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault, and on every core each unscoped buffer ends at the
    contents of the last boundary of the fold. -/
theorem run_mem : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The result array is an unscoped buffer, so the run reads it. -/
theorem result_mem : Proc.devRef .tc main_v61 ∈ Pipeline.ucRefs τ sig := mem_uc main_v61 (by decide)

end Cert.KernelIdeal.Whole

end
-- ==== Proof.LibKeepdims.lean ====
/-
  Layout operations of a row reduction that keeps its axis, read at an index given by coordinates: a vector
  [a] cast to a column [a, 1]; a column [a, 1] broadcast over b lanes to [a, b]; the index a reduction over the
  last axis of a matrix puts back; and the float sum over a matrix's last axis, at exact arithmetic, as the sum
  of a row. Each is the library's general lemma with the per-axis arithmetic discharged for these shapes.
-/
import Idealize.ShloMosaic.Lib.ValueLayout
import Idealize.ShloMosaic.PureOps.Ideal.Laws

namespace Cert.Lib.Keepdims

open Idealize.ShloMosaic Idealize.ShloMosaic.ValueIdx

variable {α : Type}

/-- An [a] array cast to the column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast over b lanes to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a reduction over a matrix's last axis puts back over row p, at coordinate k, is (p, k). -/
theorem lift_lastAxis {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A float sum over a matrix's last axis from the zero word, at exact arithmetic, is at row p the sum of that
    row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lastAxis h p k)

end Cert.Lib.Keepdims
-- ==== Proof.LibPlainDot.lean ====
/-
  A plain matrix product read at an entry. For the dimension numbers of `M×K` by `K×N` with no batch axis
  (`DotDims.plain M K N`: the left operand contracted on its columns, the right on its rows), the sum over
  the one-axis contraction index of any function of the two operand indices is the sum over `k : Fin K` of
  that function at `(p, k)` and `(k, c)` (`sum_plain`). Hence, on the extended reals, a `tpu.matmul` into
  the zero accumulator and a host `dot_general`, read at `(p, c)`, are both `∑ k, A (p, k) * B (k, c)`
  (`matmul_plain_zero_apply`, `dotGeneral_plain_apply`), for every `M`, `K`, `N`.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

variable {M K N : Nat}

/-- The left operand's index at output `(p, c)` and contraction coordinate `k` is `(p, k)`. -/
theorem lhsIdx_plain (p : Fin M) (c : Fin N) (k : Fin K) :
    (DotDims.plain M K N).lhsIdx (ix2 p c) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p c) _).trans hk

/-- The right operand's index at output `(p, c)` and contraction coordinate `k` is `(k, c)`. -/
theorem rhsIdx_plain (p : Fin M) (c : Fin N) (k : Fin K) :
    (DotDims.plain M K N).rhsIdx (ix2 p c) ((contrEquiv1 (DotDims.plain M K N) K rfl rfl).symm k) = ix2 k c := by
  have hk := contrEquiv1_symm_val (DotDims.plain M K N) K rfl rfl k
  funext a
  apply Fin.ext
  match a with
  | ⟨0, _⟩ => exact ((DotDims.plain M K N).rhsIdx_val_of_single rfl (ix2 p c) _).trans hk
  | ⟨1, _⟩ => rfl

/-- A sum over the contraction index of a plain product's dimension numbers, of any function of the two
    operand indices, is the sum over the shared axis's coordinate. -/
theorem sum_plain {β : Type*} [AddCommMonoid β]
    (f : (⟨2, ![M, K]⟩ : Shape).Idx → (⟨2, ![K, N]⟩ : Shape).Idx → β) (p : Fin M) (c : Fin N) :
    ∑ q : (DotDims.plain M K N).contr.Idx,
        f ((DotDims.plain M K N).lhsIdx (ix2 p c) q) ((DotDims.plain M K N).rhsIdx (ix2 p c) q)
      = ∑ k : Fin K, f (ix2 p k) (ix2 k c) := by
  rw [← Equiv.sum_comp (contrEquiv1 (DotDims.plain M K N) K rfl rfl).symm]
  refine Finset.sum_congr rfl fun k _ => ?_
  rw [lhsIdx_plain, rhsIdx_plain]

/-- On the extended reals a `tpu.matmul` of `A : M×K` and `B : K×N` into the zero accumulator, read at
    `(p, c)`, is `∑ k, A (p, k) * B (k, c)`. -/
theorem matmul_plain_zero_apply {φ₁ φ₂ : FTy} (prec : Option ContractPrecision)
    (A : FVec Ideal ⟨2, ![M, K]⟩ φ₁) (B : FVec Ideal ⟨2, ![K, N]⟩ φ₂) (p : Fin M) (c : Fin N) :
    FloatOps.matmul (DotDims.plain M K N) prec A B (constant ⟨2, ![M, N]⟩ .f32 0x00000000#32) (ix2 p c)
      = ∑ k : Fin K, A (ix2 p k) * B (ix2 k c) :=
  (Ideal.matmul_constant_zero_apply (DotDims.plain M K N) prec A B (ix2 p c)).trans
    (sum_plain (fun i j => A i * B j) p c)

/-- On the extended reals a host `dot_general` of `A : M×K` and `B : K×N`, read at `(p, c)`, is the
    same sum, whatever the schedule. -/
theorem dotGeneral_plain_apply {φ₁ φ₂ : FTy} (prec : Option ContractPrecision) (sched : HostSchedule)
    (A : FVec Ideal ⟨2, ![M, K]⟩ φ₁) (B : FVec Ideal ⟨2, ![K, N]⟩ φ₂) (p : Fin M) (c : Fin N) :
    FloatOps.dotGeneral (DotDims.plain M K N) prec sched A B (ix2 p c)
      = ∑ k : Fin K, A (ix2 p k) * B (ix2 k c) :=
  (Ideal.dotGeneral_apply (DotDims.plain M K N) prec sched A B (ix2 p c)).trans
    (sum_plain (fun i j => A i * B j) p c)

end Cert.Lib.PlainDot

end
-- ==== Proof.MixSpec.lean ====
/-
  One layer of the adaptive low-pass / high-pass mix, as mathematics on the extended reals.

  For a node with feature row `x` (128 entries) and aggregated row `z`, a gate vector `a` and a gate bias `β`:
    gate      g = logistic (∑ₖ x k · a k + β),      logistic t = 1 / (1 + e^(−t)),
    mixed row m k = g · z k + (1 − g) · (x k − z k),
    affine    y c = ∑ₖ m k · W k c + b c,
  and the first layer applies `max · 0` to `y`. Every operation is the exact one; nothing here needs the entries to be
  finite, because only the grouping above is used, never distributivity or cancellation.

  The second half reads the operations a tile of rows is computed with — a row sum kept as a column, a column or a
  row spread over a matrix, a matrix product into a zero accumulator — at an entry `(r, c)`, and finds these formulas.
-/
import Idealize.ShloMosaic.Lib.ValueIdx
import Idealize.ShloMosaic.Lib.ValueLayout
import Idealize.ShloMosaic.PureOps.Ideal.Laws
import proofs.«167398_j10213432229977_1_alg».proof.Proof.LibKeepdims
import proofs.«167398_j10213432229977_1_alg».proof.Proof.LibPlainDot

noncomputable section

open scoped BigOperators

namespace Cert.Mix

open Idealize.ShloMosaic Idealize.ShloMosaic.ValueIdx

/-! ## The formulas, one row at a time -/

/-- The literal one, kept as its word: both programs carry the same word, so it is never evaluated. -/
abbrev one : EReal := Ideal.ofBits .f32 0x3F800000#32
/-- The literal zero of the rectifier, kept as its word. -/
abbrev zero : EReal := Ideal.ofBits .f32 0x00000000#32

/-- The gate of a row: the logistic function of the row's inner product with the gate vector, plus the bias. -/
def gate (x a : Fin 128 → EReal) (β : EReal) : EReal := Ideal.logistic ((∑ k : Fin 128, x k * a k) + β)

/-- The mixed row: the gate's share of the aggregated row plus the complementary share of the difference. -/
def mixed (x z a : Fin 128 → EReal) (β : EReal) (k : Fin 128) : EReal :=
  gate x a β * z k + (one - gate x a β) * (x k - z k)

/-- The affine map of the mixed row: its product with the weight matrix, plus the bias. -/
def affine {D : Nat} (x z a : Fin 128 → EReal) (β : EReal) (W : Fin 128 → Fin D → EReal) (b : Fin D → EReal) (c : Fin D) : EReal :=
  (∑ k : Fin 128, mixed x z a β k * W k c) + b c

/-! ## The layers, as functions of whole arrays of `R` rows

  The gate vector arrives as a row `[1, 128]`, the gate bias as `[1]`, the weights as `[128, D]` (input feature by
  output feature) and the bias as `[D]`. -/

/-- The first layer (rectified) on an array of `R` rows. -/
def layerRelu (R : Nat) (x z : (⟨2, ![R, 128]⟩ : Shape).Idx → EReal) (aT : (⟨2, ![1, 128]⟩ : Shape).Idx → EReal)
    (β : (⟨1, ![1]⟩ : Shape).Idx → EReal) (W : (⟨2, ![128, 128]⟩ : Shape).Idx → EReal) (b : (⟨1, ![128]⟩ : Shape).Idx → EReal) :
    (⟨2, ![R, 128]⟩ : Shape).Idx → EReal := fun i =>
  max (affine (fun k => x (ix2 (i 0 : Fin R) k)) (fun k => z (ix2 (i 0 : Fin R) k)) (fun k => aT (ix2 (0 : Fin 1) k)) (β (ix1 (0 : Fin 1)))
    (fun k c => W (ix2 k c)) (fun c => b (ix1 c)) (i 1 : Fin 128)) zero

/-- The second layer (no rectifier, 40 outputs) on an array of `R` rows. -/
def layerLin (R : Nat) (x z : (⟨2, ![R, 128]⟩ : Shape).Idx → EReal) (aT : (⟨2, ![1, 128]⟩ : Shape).Idx → EReal)
    (β : (⟨1, ![1]⟩ : Shape).Idx → EReal) (W : (⟨2, ![128, 40]⟩ : Shape).Idx → EReal) (b : (⟨1, ![40]⟩ : Shape).Idx → EReal) :
    (⟨2, ![R, 40]⟩ : Shape).Idx → EReal := fun i =>
  affine (fun k => x (ix2 (i 0 : Fin R) k)) (fun k => z (ix2 (i 0 : Fin R) k)) (fun k => aT (ix2 (0 : Fin 1) k)) (β (ix1 (0 : Fin 1)))
    (fun k c => W (ix2 k c)) (fun c => b (ix1 c)) (i 1 : Fin 40)

theorem layerRelu_ix2 (R : Nat) (x z : (⟨2, ![R, 128]⟩ : Shape).Idx → EReal) (aT : (⟨2, ![1, 128]⟩ : Shape).Idx → EReal)
    (β : (⟨1, ![1]⟩ : Shape).Idx → EReal) (W : (⟨2, ![128, 128]⟩ : Shape).Idx → EReal) (b : (⟨1, ![128]⟩ : Shape).Idx → EReal)
    (r : Fin R) (c : Fin 128) :
    layerRelu R x z aT β W b (ix2 r c)
      = max (affine (fun k => x (ix2 r k)) (fun k => z (ix2 r k)) (fun k => aT (ix2 (0 : Fin 1) k)) (β (ix1 (0 : Fin 1)))
          (fun k c => W (ix2 k c)) (fun c => b (ix1 c)) c) zero := rfl

theorem layerLin_ix2 (R : Nat) (x z : (⟨2, ![R, 128]⟩ : Shape).Idx → EReal) (aT : (⟨2, ![1, 128]⟩ : Shape).Idx → EReal)
    (β : (⟨1, ![1]⟩ : Shape).Idx → EReal) (W : (⟨2, ![128, 40]⟩ : Shape).Idx → EReal) (b : (⟨1, ![40]⟩ : Shape).Idx → EReal)
    (r : Fin R) (c : Fin 40) :
    layerLin R x z aT β W b (ix2 r c)
      = affine (fun k => x (ix2 r k)) (fun k => z (ix2 r k)) (fun k => aT (ix2 (0 : Fin 1) k)) (β (ix1 (0 : Fin 1)))
          (fun k c => W (ix2 k c)) (fun c => b (ix1 c)) c := rfl

/-! ## A tile's operations read at an entry -/

/-- The gate column of a tile: the row sums of `x ⊙ (a spread over the rows)`, kept as a column, plus the bias spread
    down the column, through the logistic function — at row `r` it is the gate of that row. -/
theorem gate_col {R : Nat} (v0 : FVec Ideal ⟨2, ![R, 128]⟩ .f32) (v4 : FVec Ideal ⟨2, ![1, 128]⟩ .f32) (v5 : FVec Ideal ⟨1, ![1]⟩ .f32)
    (hb : (⟨2, ![1, 128]⟩ : Shape).Broadcasts ⟨2, ![R, 128]⟩) (hr : (⟨2, ![R, 128]⟩ : Shape).Reduces [1] (⟨1, ![R]⟩ : Shape))
    (hφ : FKind.Formats .f32) (hacc : (0x00000000#32 : BitVec 32) = 0x00000000#32)
    (hc : (⟨1, ![R]⟩ : Shape).ShapeCasts ⟨2, ![R, 1]⟩) (hc1 : (⟨1, ![1]⟩ : Shape).ShapeCasts ⟨2, ![1, 1]⟩)
    (hb1 : (⟨2, ![1, 1]⟩ : Shape).Broadcasts ⟨2, ![R, 1]⟩) (r : Fin R) :
    logistic (addf (shapeCast ⟨2, ![R, 1]⟩ (multiReduction .add [1] ⟨1, ![R]⟩ (mulf v0 (broadcastTo ⟨2, ![R, 128]⟩ v4 hb)) 0x00000000#32 hr hφ hacc) hc)
        (broadcastTo ⟨2, ![R, 1]⟩ (shapeCast ⟨2, ![1, 1]⟩ v5 hc1) hb1)) (ix2 r (0 : Fin 1))
      = gate (fun k => v0 (ix2 r k)) (fun k => v4 (ix2 (0 : Fin 1) k)) (v5 (ix1 (0 : Fin 1))) := by
  show Ideal.logistic (shapeCast ⟨2, ![R, 1]⟩ _ hc (ix2 r (0 : Fin 1)) + broadcastTo ⟨2, ![R, 1]⟩ _ hb1 (ix2 r (0 : Fin 1))) = _
  rw [Cert.Lib.Keepdims.shapeCast_a_a1_apply, Cert.Lib.Keepdims.rowSum_apply, broadcastTo_1b_ab_apply, shapeCast_a_1a_apply]
  unfold gate
  refine congrArg (fun s => Ideal.logistic (s + v5 (ix1 (0 : Fin 1)))) (Finset.sum_congr rfl fun k _ => ?_)
  show v0 (ix2 r k) * broadcastTo ⟨2, ![R, 128]⟩ v4 hb (ix2 r k) = _
  rw [broadcastTo_1b_ab_apply]

/-- The mixing of a tile at `(r, k)`: the gate column spread over the lanes times the aggregated tile, plus one minus
    the gate column, spread, times the difference. -/
theorem mixed_read {R : Nat} (g : FVec Ideal ⟨2, ![R, 1]⟩ .f32) (v0 v2 : FVec Ideal ⟨2, ![R, 128]⟩ .f32)
    (hb : (⟨2, ![R, 1]⟩ : Shape).Broadcasts ⟨2, ![R, 128]⟩) (r : Fin R) (k : Fin 128) :
    addf (mulf (broadcastTo ⟨2, ![R, 128]⟩ g hb) v2)
        (mulf (broadcastTo ⟨2, ![R, 128]⟩ (subf (broadcast ⟨2, ![R, 1]⟩ (Scalar.ofBits (F := Ideal) .f32 0x3F800000#32)) g) hb) (subf v0 v2)) (ix2 r k)
      = g (ix2 r (0 : Fin 1)) * v2 (ix2 r k) + (one - g (ix2 r (0 : Fin 1))) * (v0 (ix2 r k) - v2 (ix2 r k)) := by
  show broadcastTo ⟨2, ![R, 128]⟩ g hb (ix2 r k) * v2 (ix2 r k)
      + broadcastTo ⟨2, ![R, 128]⟩ (subf (broadcast ⟨2, ![R, 1]⟩ (Scalar.ofBits (F := Ideal) .f32 0x3F800000#32)) g) hb (ix2 r k) * (v0 (ix2 r k) - v2 (ix2 r k)) = _
  rw [Cert.Lib.Keepdims.broadcastTo_a1_ab_apply, Cert.Lib.Keepdims.broadcastTo_a1_ab_apply]
  rfl

/-- The product of a tile with the weights, both rounded to a narrower format on the way in (the identity here), into
    the zero accumulator: at `(r, c)` the sum over the 128 features. -/
theorem proj_read {R D : Nat} (z : FVec Ideal ⟨2, ![R, 128]⟩ .f32) (w : FVec Ideal ⟨2, ![128, D]⟩ .f32)
    (hlt : FTy.bf16.bits < FTy.f32.bits) (d : DotDims ⟨2, ![R, 128]⟩ ⟨2, ![128, D]⟩ ⟨2, ![R, D]⟩) (hd : d = DotDims.plain R 128 D)
    (r : Fin R) (c : Fin D) :
    matmul d none (truncf .bf16 z hlt) (truncf .bf16 w hlt) (constant ⟨2, ![R, D]⟩ .f32 0x00000000#32) (ix2 r c)
      = ∑ k : Fin 128, z (ix2 r k) * w (ix2 k c) := by
  subst hd
  exact Cert.Lib.PlainDot.matmul_plain_zero_apply none (truncf .bf16 z hlt) (truncf .bf16 w hlt) r c

/-- A bias vector laid as a row and spread over the rows reads, at `(r, c)`, its entry `c`. -/
theorem bias_read {R D : Nat} (v : FVec Ideal ⟨1, ![D]⟩ .f32) (hc : (⟨1, ![D]⟩ : Shape).ShapeCasts ⟨2, ![1, D]⟩)
    (hb : (⟨2, ![1, D]⟩ : Shape).Broadcasts ⟨2, ![R, D]⟩) (r : Fin R) (c : Fin D) :
    broadcastTo ⟨2, ![R, D]⟩ (shapeCast ⟨2, ![1, D]⟩ v hc) hb (ix2 r c) = v (ix1 c) := by
  rw [broadcastTo_1b_ab_apply, shapeCast_a_1a_apply]

/-! ## Row blocks

  Entry `(r, c)` of a layer depends on row `r` of `x` and of `z` only. So the layer of a block of 2000 consecutive rows
  is that block of the layer: if `x'` and `z'` are rows `o … o + 1999` of `x` and `z`, the layer of `(x', z')` at `(r, c)` is
  the layer of `(x, z)` at `(o + r, c)`. The function forms take the embedding `e` of the block's indices into the array's. -/

theorem layerRelu_blocks {R : Nat} (x z : (⟨2, ![R, 128]⟩ : Shape).Idx → EReal) (aT : (⟨2, ![1, 128]⟩ : Shape).Idx → EReal)
    (β : (⟨1, ![1]⟩ : Shape).Idx → EReal) (W : (⟨2, ![128, 128]⟩ : Shape).Idx → EReal) (b : (⟨1, ![128]⟩ : Shape).Idx → EReal)
    (x' z' : (⟨2, ![2000, 128]⟩ : Shape).Idx → EReal) (o : Nat) (ho : o + 2000 ≤ R)
    (hx : ∀ (r : Fin 2000) (k : Fin 128), x' (ix2 r k) = x (ix2 (⟨o + r.val, Nat.lt_of_lt_of_le (Nat.add_lt_add_left r.isLt o) ho⟩ : Fin R) k))
    (hz : ∀ (r : Fin 2000) (k : Fin 128), z' (ix2 r k) = z (ix2 (⟨o + r.val, Nat.lt_of_lt_of_le (Nat.add_lt_add_left r.isLt o) ho⟩ : Fin R) k))
    (r : Fin 2000) (q : Fin 128) :
    layerRelu 2000 x' z' aT β W b (ix2 r q)
      = layerRelu R x z aT β W b (ix2 (⟨o + r.val, Nat.lt_of_lt_of_le (Nat.add_lt_add_left r.isLt o) ho⟩ : Fin R) q) := by
  rw [layerRelu_ix2, layerRelu_ix2]
  simp only [hx, hz]

theorem layerLin_blocks {R : Nat} (x z : (⟨2, ![R, 128]⟩ : Shape).Idx → EReal) (aT : (⟨2, ![1, 128]⟩ : Shape).Idx → EReal)
    (β : (⟨1, ![1]⟩ : Shape).Idx → EReal) (W : (⟨2, ![128, 40]⟩ : Shape).Idx → EReal) (b : (⟨1, ![40]⟩ : Shape).Idx → EReal)
    (x' z' : (⟨2, ![2000, 128]⟩ : Shape).Idx → EReal) (o : Nat) (ho : o + 2000 ≤ R)
    (hx : ∀ (r : Fin 2000) (k : Fin 128), x' (ix2 r k) = x (ix2 (⟨o + r.val, Nat.lt_of_lt_of_le (Nat.add_lt_add_left r.isLt o) ho⟩ : Fin R) k))
    (hz : ∀ (r : Fin 2000) (k : Fin 128), z' (ix2 r k) = z (ix2 (⟨o + r.val, Nat.lt_of_lt_of_le (Nat.add_lt_add_left r.isLt o) ho⟩ : Fin R) k))
    (r : Fin 2000) (q : Fin 40) :
    layerLin 2000 x' z' aT β W b (ix2 r q)
      = layerLin R x z aT β W b (ix2 (⟨o + r.val, Nat.lt_of_lt_of_le (Nat.add_lt_add_left r.isLt o) ho⟩ : Fin R) q) := by
  rw [layerLin_ix2, layerLin_ix2]
  simp only [hx, hz]

theorem layerRelu_blocks_fun {R : Nat} (x z : (⟨2, ![R, 128]⟩ : Shape).Idx → EReal) (aT : (⟨2, ![1, 128]⟩ : Shape).Idx → EReal)
    (β : (⟨1, ![1]⟩ : Shape).Idx → EReal) (W : (⟨2, ![128, 128]⟩ : Shape).Idx → EReal) (b : (⟨1, ![128]⟩ : Shape).Idx → EReal)
    (x' z' : (⟨2, ![2000, 128]⟩ : Shape).Idx → EReal) (o : Nat) (ho : o + 2000 ≤ R)
    (hx : ∀ (r : Fin 2000) (k : Fin 128), x' (ix2 r k) = x (ix2 (⟨o + r.val, Nat.lt_of_lt_of_le (Nat.add_lt_add_left r.isLt o) ho⟩ : Fin R) k))
    (hz : ∀ (r : Fin 2000) (k : Fin 128), z' (ix2 r k) = z (ix2 (⟨o + r.val, Nat.lt_of_lt_of_le (Nat.add_lt_add_left r.isLt o) ho⟩ : Fin R) k))
    (e : (⟨2, ![2000, 128]⟩ : Shape).Idx → (⟨2, ![R, 128]⟩ : Shape).Idx)
    (he : ∀ (r : Fin 2000) (q : Fin 128), e (ix2 r q) = ix2 (⟨o + r.val, Nat.lt_of_lt_of_le (Nat.add_lt_add_left r.isLt o) ho⟩ : Fin R) q) :
    layerRelu 2000 x' z' aT β W b = fun j => layerRelu R x z aT β W b (e j) := by
  funext j
  obtain ⟨r, q, rfl⟩ : ∃ (r : Fin 2000) (q : Fin 128), j = ix2 r q := ⟨j 0, j 1, eq_ix2 j⟩
  rw [he]
  exact layerRelu_blocks x z aT β W b x' z' o ho hx hz r q

theorem layerLin_blocks_fun {R : Nat} (x z : (⟨2, ![R, 128]⟩ : Shape).Idx → EReal) (aT : (⟨2, ![1, 128]⟩ : Shape).Idx → EReal)
    (β : (⟨1, ![1]⟩ : Shape).Idx → EReal) (W : (⟨2, ![128, 40]⟩ : Shape).Idx → EReal) (b : (⟨1, ![40]⟩ : Shape).Idx → EReal)
    (x' z' : (⟨2, ![2000, 128]⟩ : Shape).Idx → EReal) (o : Nat) (ho : o + 2000 ≤ R)
    (hx : ∀ (r : Fin 2000) (k : Fin 128), x' (ix2 r k) = x (ix2 (⟨o + r.val, Nat.lt_of_lt_of_le (Nat.add_lt_add_left r.isLt o) ho⟩ : Fin R) k))
    (hz : ∀ (r : Fin 2000) (k : Fin 128), z' (ix2 r k) = z (ix2 (⟨o + r.val, Nat.lt_of_lt_of_le (Nat.add_lt_add_left r.isLt o) ho⟩ : Fin R) k))
    (e : (⟨2, ![2000, 40]⟩ : Shape).Idx → (⟨2, ![R, 40]⟩ : Shape).Idx)
    (he : ∀ (r : Fin 2000) (q : Fin 40), e (ix2 r q) = ix2 (⟨o + r.val, Nat.lt_of_lt_of_le (Nat.add_lt_add_left r.isLt o) ho⟩ : Fin R) q) :
    layerLin 2000 x' z' aT β W b = fun j => layerLin R x z aT β W b (e j) := by
  funext j
  obtain ⟨r, q, rfl⟩ : ∃ (r : Fin 2000) (q : Fin 40), j = ix2 r q := ⟨j 0, j 1, eq_ix2 j⟩
  rw [he]
  exact layerLin_blocks x z aT β W b x' z' o ho hx hz r q

end Cert.Mix

end
-- ==== Proof.Payload.lean ====
/-
  What one grid step computes. Each of the two kernels loads a tile of 2000 node rows `x`, the matching tile of
  aggregated rows `z`, the gate vector as a row, the gate bias, the weights and the bias, and stores one value: for
  the first kernel the rectified affine map of the mixed rows, for the second the affine map alone, with 40 outputs.
  Entry `(r, c)` of the stored tile depends on row `r` of the two tiles only, and is the row formula of the
  specification: the stored tile is the layer function on an array of 2000 rows.
-/
import proofs.«167398_j10213432229977_1_alg».proof.Proof.Gen.KernelIdeal.Skeleton
import proofs.«167398_j10213432229977_1_alg».proof.Proof.MixSpec

noncomputable section

open scoped BigOperators

namespace Cert.KernelIdeal.Tile

open Idealize.ShloMosaic Idealize.ShloMosaic.ValueIdx Cert.KernelIdeal Cert.KernelIdeal.Gen Cert.Mix

/-- The first kernel's product is a plain one: 2000×128 by 128×128. -/
theorem dot0_plain : dot_S2000x128_S128x128_S2000x128_1_0_0_1_n_n = DotDims.plain 2000 128 128 := rfl
/-- The second kernel's product is a plain one: 2000×128 by 128×40. -/
theorem dot1_plain : dot_S2000x128_S128x40_S2000x40_1_0_0_1_n_n = DotDims.plain 2000 128 40 := rfl

/-- The first kernel's stored tile is the rectified layer on its 2000 rows. -/
theorem pay0_eq (x0 x1 : Vec Ideal S2000x128 .f32) (x2 : Vec Ideal S1x128 .f32) (x3 : Vec Ideal S1 .f32)
    (x4 : Vec Ideal S128x128 .f32) (x5 : Vec Ideal S128 .f32) :
    k0_pay1 (F := Ideal) x0 x1 x2 x3 x4 x5 = layerRelu 2000 x0 x1 x2 x3 x4 x5 := by
  funext j
  obtain ⟨r, c, rfl⟩ : ∃ (r : Fin 2000) (c : Fin 128), j = ix2 r c := ⟨j 0, j 1, eq_ix2 j⟩
  rw [layerRelu_ix2]
  unfold k0_pay1
  simp only [shapeCast_self]
  refine congrArg (fun s => max s zero) ?_
  refine congrArg₂ (· + ·) ((proj_read _ x4 _ _ dot0_plain r c).trans
    (Finset.sum_congr rfl fun k _ => congrArg (· * x4 (ix2 k c)) ?_)) (bias_read x5 _ _ r c)
  refine (mixed_read _ x0 x1 _ r k).trans ?_
  rw [gate_col]
  rfl

/-- The second kernel's stored tile is the unrectified 40-output layer on its 2000 rows. -/
theorem pay1_eq (x0 x1 : Vec Ideal S2000x128 .f32) (x2 : Vec Ideal S1x128 .f32) (x3 : Vec Ideal S1 .f32)
    (x4 : Vec Ideal S128x40 .f32) (x5 : Vec Ideal S40 .f32) :
    k1_pay1 (F := Ideal) x0 x1 x2 x3 x4 x5 = layerLin 2000 x0 x1 x2 x3 x4 x5 := by
  funext j
  obtain ⟨r, c, rfl⟩ : ∃ (r : Fin 2000) (c : Fin 40), j = ix2 r c := ⟨j 0, j 1, eq_ix2 j⟩
  rw [layerLin_ix2]
  unfold k1_pay1
  simp only [shapeCast_self]
  refine congrArg₂ (· + ·) ((proj_read _ x4 _ _ dot1_plain r c).trans
    (Finset.sum_congr rfl fun k _ => congrArg (· * x4 (ix2 k c)) ?_)) (bias_read x5 _ _ r c)
  refine (mixed_read _ x0 x1 _ r k).trans ?_
  rw [gate_col]
  rfl

end Cert.KernelIdeal.Tile

end
-- ==== Proof.Region0.lean ====
/-
  The first kernel launch, from blocks to the whole array.

  The grid has 25 points; point `t` is handed rows `2000·t … 2000·t + 1999` of the node array and of the aggregated
  array, and the gate row, gate bias, weights and bias whole, and writes back rows `2000·t … 2000·t + 1999` of the
  output. What it writes is the layer function of its row blocks, which is that row block of the layer function of
  the whole arrays (entry `(r, c)` of a layer looks at row `r` only). The 25 blocks tile the 50000 rows, so after
  the launch the output array is the layer function of the arrays as the launch found them. Everything is stated for
  arbitrary contents `V` at the launch's entry.
-/
import proofs.«167398_j10213432229977_1_alg».proof.Proof.Gen.KernelIdeal.Frame
import proofs.«167398_j10213432229977_1_alg».proof.Proof.Payload
import Idealize.ShloMosaic.Lib.Pipeline.Value

set_option maxRecDepth 16384

noncomputable section

namespace Cert.KernelIdeal.Region0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Mix

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the 25 grid points: the two row-blocked inputs and the output sit at block
    row `t`, block column 0; the four small operands are always their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- The output array after the launch, as a function of the arrays at its entry. -/
abbrev G (c : Dev nD) : (⟨2, ![50000, 128]⟩ : Shape).Idx → EReal :=
  layerRelu 50000 (V c main_arg0) (V c main_v42) (V c main_v44) (V c main_arg3) (V c main_v43) (V c main_arg5)

/-- A grid point is below 25. -/
theorem point_lt (t : Fin cfg0.N) : t.val < 25 := lt_of_lt_of_eq t.isLt N_0

/-- Row `r` of point `t`'s block of the node array is row `2000·t + r` of the array. -/
theorem xblk (c : Dev nD) (t : Fin cfg0.N) (r : Fin 2000) (k : Fin 128) :
    iblk0 V c 0 t (ix2 r k)
      = V c main_arg0 (ix2 (⟨t.val * 2000 + r.val, by have := point_lt t; have := r.isLt; omega⟩ : Fin 50000) k) := by
  obtain ⟨e0, e1, -⟩ := idx_facts t
  show V c main_arg0 (((cfg0.win 0).blk t).view.emb (ix2 r k)) = _
  refine congrArg _ (funext fun a => Fin.ext ?_)
  match a with
  | ⟨0, _⟩ => show win0_0.index t (0 : Fin 2) * 2000 + 1 * r.val = t.val * 2000 + r.val; omega
  | ⟨1, _⟩ => show win0_0.index t (1 : Fin 2) * 128 + 1 * k.val = k.val; omega

/-- The same for the aggregated array. -/
theorem zblk (c : Dev nD) (t : Fin cfg0.N) (r : Fin 2000) (k : Fin 128) :
    iblk0 V c 1 t (ix2 r k)
      = V c main_v42 (ix2 (⟨t.val * 2000 + r.val, by have := point_lt t; have := r.isLt; omega⟩ : Fin 50000) k) := by
  obtain ⟨-, -, e0, e1, -⟩ := idx_facts t
  show V c main_v42 (((cfg0.win 1).blk t).view.emb (ix2 r k)) = _
  refine congrArg _ (funext fun a => Fin.ext ?_)
  match a with
  | ⟨0, _⟩ => show win0_1.index t (0 : Fin 2) * 2000 + 1 * r.val = t.val * 2000 + r.val; omega
  | ⟨1, _⟩ => show win0_1.index t (1 : Fin 2) * 128 + 1 * k.val = k.val; omega

/-- The gate row's block is the gate row. -/
theorem ablk (c : Dev nD) (t : Fin cfg0.N) : iblk0 V c 2 t = V c main_v44 := by
  obtain ⟨-, -, -, -, e0, e1, -⟩ := idx_facts t
  funext y
  show V c main_v44 (((cfg0.win 2).blk t).view.emb y) = V c main_v44 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- The gate bias's block is the gate bias. -/
theorem bblk (c : Dev nD) (t : Fin cfg0.N) : iblk0 V c 3 t = V c main_arg3 := by
  obtain ⟨-, -, -, -, -, -, e0, -⟩ := idx_facts t
  funext y
  show V c main_arg3 (((cfg0.win 3).blk t).view.emb y) = V c main_arg3 y
  refine congrArg _ (funext fun a => Fin.ext ?_)
  match a with
  | ⟨0, _⟩ => show win0_3.index t (0 : Fin 1) * 1 + 1 * (y 0).val = (y 0).val; omega

/-- The weights' block is the weights. -/
theorem wblk (c : Dev nD) (t : Fin cfg0.N) : iblk0 V c 4 t = V c main_v43 := by
  obtain ⟨-, -, -, -, -, -, -, e0, e1, -⟩ := idx_facts t
  funext y
  show V c main_v43 (((cfg0.win 4).blk t).view.emb y) = V c main_v43 y
  refine congrArg _ (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- The bias's block is the bias. -/
theorem cblk (c : Dev nD) (t : Fin cfg0.N) : iblk0 V c 5 t = V c main_arg5 := by
  obtain ⟨-, -, -, -, -, -, -, -, -, e0, -⟩ := idx_facts t
  funext y
  show V c main_arg5 (((cfg0.win 5).blk t).view.emb y) = V c main_arg5 y
  refine congrArg _ (funext fun a => Fin.ext ?_)
  match a with
  | ⟨0, _⟩ => show win0_5.index t (0 : Fin 1) * 128 + 1 * (y 0).val = (y 0).val; omega

/-- Entry `(r, q)` of point `t`'s output block sits at `(2000·t + r, q)` of the output array. -/
theorem oemb (t : Fin cfg0.N) (r : Fin 2000) (q : Fin 128) :
    ((cfg0.win 6).blk t).view.emb (ix2 r q)
      = ix2 (⟨t.val * 2000 + r.val, by have := point_lt t; have := r.isLt; omega⟩ : Fin 50000) q := by
  obtain ⟨-, -, -, -, -, -, -, -, -, -, e0, e1⟩ := idx_facts t
  refine funext fun a => Fin.ext ?_
  match a with
  | ⟨0, _⟩ => show win0_6.index t (0 : Fin 2) * 2000 + 1 * r.val = t.val * 2000 + r.val; omega
  | ⟨1, _⟩ => show win0_6.index t (1 : Fin 2) * 128 + 1 * q.val = q.val; omega

/-- What point `t` writes back is block `t` of `G`. -/
theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz2]
  simp only [View.ld_unit_zero (S := S2000x128) hz2, View.ld_unit_zero (S := S1x128) hz2, View.ld_unit_zero (S := S1) hz1,
    View.ld_unit_zero (S := S128x128) hz2, View.ld_unit_zero (S := S128) hz1]
  rw [Tile.pay0_eq, ablk V c t, bblk V c t, wblk V c t, cblk V c t]
  exact layerRelu_blocks_fun (V c main_arg0) (V c main_v42) (V c main_v44) (V c main_arg3) (V c main_v43) (V c main_arg5)
    (iblk0 V c 0 t) (iblk0 V c 1 t) (t.val * 2000) (by have := point_lt t; omega)
    (fun r k => xblk V c t r k) (fun r k => zblk V c t r k)
    (((cfg0.win 6).blk t).view.emb) (fun r q => oemb t r q)

/-- An index of the output array is in point `t`'s block iff each coordinate is in the block's range on its axis. -/
theorem mem_blk (t : Fin cfg0.N) (i : S50000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v45).slice (win0_6.rect t)).set ↔ _
  rw [View.set_slice_whole, Rect.mem_set_unit]
  exact Iff.rfl

/-- The 25 blocks cover the array: row `ρ` is in the block of point `ρ / 2000`. -/
theorem cover (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 25 := N_0
  let t : Fin cfg0.N := ⟨(i 0).val / 2000, by rw [hN]; omega⟩
  have htv : t.val = (i 0).val / 2000 := rfl
  obtain ⟨-, -, -, -, -, -, -, -, -, -, e0, e1⟩ := idx_facts t
  refine ⟨t, flush0_6 t, ?_⟩
  rw [mem_blk]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 128 ≤ (i 1).val ∧ (i 1).val < win0_6.index t (1 : Fin 2) * 128 + 128; omega

/-- After the launch the output array is the layer function of the arrays at the launch's entry. -/
theorem final (c : Dev nD) : (dat0 V c).arrAt 6 cfg0.N = G V c :=
  (dat0 V c).arrAt_eq_of_cover 6 (G V c) (fun t _ => flushed_eq V c t) (cover)

end Cert.KernelIdeal.Region0

end
-- ==== Proof.Region1.lean ====
/-
  The second kernel launch, from blocks to the whole array.

  The grid has 25 points; point `t` is handed rows `2000·t … 2000·t + 1999` of the node array and of the aggregated
  array, and the gate row, gate bias, weights and bias whole, and writes back rows `2000·t … 2000·t + 1999` of the
  output. What it writes is the layer function of its row blocks, which is that row block of the layer function of
  the whole arrays (entry `(r, c)` of a layer looks at row `r` only). The 25 blocks tile the 50000 rows, so after
  the launch the output array is the layer function of the arrays as the launch found them. Everything is stated for
  arbitrary contents `V` at the launch's entry.
-/
import proofs.«167398_j10213432229977_1_alg».proof.Proof.Gen.KernelIdeal.Frame
import proofs.«167398_j10213432229977_1_alg».proof.Proof.Payload
import Idealize.ShloMosaic.Lib.Pipeline.Value

set_option maxRecDepth 16384

noncomputable section

namespace Cert.KernelIdeal.Region1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Mix

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the 25 grid points: the two row-blocked inputs and the output sit at block
    row `t`, block column 0; the four small operands are always their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- The output array after the launch, as a function of the arrays at its entry. -/
abbrev G (c : Dev nD) : (⟨2, ![50000, 40]⟩ : Shape).Idx → EReal :=
  layerLin 50000 (V c main_v45) (V c main_v58) (V c main_v60) (V c main_arg7) (V c main_v59) (V c main_arg9)

/-- A grid point is below 25. -/
theorem point_lt (t : Fin cfg1.N) : t.val < 25 := lt_of_lt_of_eq t.isLt N_1

/-- Row `r` of point `t`'s block of the node array is row `2000·t + r` of the array. -/
theorem xblk (c : Dev nD) (t : Fin cfg1.N) (r : Fin 2000) (k : Fin 128) :
    iblk1 V c 0 t (ix2 r k)
      = V c main_v45 (ix2 (⟨t.val * 2000 + r.val, by have := point_lt t; have := r.isLt; omega⟩ : Fin 50000) k) := by
  obtain ⟨e0, e1, -⟩ := idx_facts t
  show V c main_v45 (((cfg1.win 0).blk t).view.emb (ix2 r k)) = _
  refine congrArg _ (funext fun a => Fin.ext ?_)
  match a with
  | ⟨0, _⟩ => show win1_0.index t (0 : Fin 2) * 2000 + 1 * r.val = t.val * 2000 + r.val; omega
  | ⟨1, _⟩ => show win1_0.index t (1 : Fin 2) * 128 + 1 * k.val = k.val; omega

/-- The same for the aggregated array. -/
theorem zblk (c : Dev nD) (t : Fin cfg1.N) (r : Fin 2000) (k : Fin 128) :
    iblk1 V c 1 t (ix2 r k)
      = V c main_v58 (ix2 (⟨t.val * 2000 + r.val, by have := point_lt t; have := r.isLt; omega⟩ : Fin 50000) k) := by
  obtain ⟨-, -, e0, e1, -⟩ := idx_facts t
  show V c main_v58 (((cfg1.win 1).blk t).view.emb (ix2 r k)) = _
  refine congrArg _ (funext fun a => Fin.ext ?_)
  match a with
  | ⟨0, _⟩ => show win1_1.index t (0 : Fin 2) * 2000 + 1 * r.val = t.val * 2000 + r.val; omega
  | ⟨1, _⟩ => show win1_1.index t (1 : Fin 2) * 128 + 1 * k.val = k.val; omega

/-- The gate row's block is the gate row. -/
theorem ablk (c : Dev nD) (t : Fin cfg1.N) : iblk1 V c 2 t = V c main_v60 := by
  obtain ⟨-, -, -, -, e0, e1, -⟩ := idx_facts t
  funext y
  show V c main_v60 (((cfg1.win 2).blk t).view.emb y) = V c main_v60 y
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- The gate bias's block is the gate bias. -/
theorem bblk (c : Dev nD) (t : Fin cfg1.N) : iblk1 V c 3 t = V c main_arg7 := by
  obtain ⟨-, -, -, -, -, -, e0, -⟩ := idx_facts t
  funext y
  show V c main_arg7 (((cfg1.win 3).blk t).view.emb y) = V c main_arg7 y
  refine congrArg _ (funext fun a => Fin.ext ?_)
  match a with
  | ⟨0, _⟩ => show win1_3.index t (0 : Fin 1) * 1 + 1 * (y 0).val = (y 0).val; omega

/-- The weights' block is the weights. -/
theorem wblk (c : Dev nD) (t : Fin cfg1.N) : iblk1 V c 4 t = V c main_v59 := by
  obtain ⟨-, -, -, -, -, -, -, e0, e1, -⟩ := idx_facts t
  funext y
  show V c main_v59 (((cfg1.win 4).blk t).view.emb y) = V c main_v59 y
  refine congrArg _ (funext fun a => Fin.ext ?_)
  match a with
  | ⟨0, _⟩ => show win1_4.index t (0 : Fin 2) * 128 + 1 * (y 0).val = (y 0).val; omega
  | ⟨1, _⟩ => show win1_4.index t (1 : Fin 2) * 40 + 1 * (y 1).val = (y 1).val; omega

/-- The bias's block is the bias. -/
theorem cblk (c : Dev nD) (t : Fin cfg1.N) : iblk1 V c 5 t = V c main_arg9 := by
  obtain ⟨-, -, -, -, -, -, -, -, -, e0, -⟩ := idx_facts t
  funext y
  show V c main_arg9 (((cfg1.win 5).blk t).view.emb y) = V c main_arg9 y
  refine congrArg _ (funext fun a => Fin.ext ?_)
  match a with
  | ⟨0, _⟩ => show win1_5.index t (0 : Fin 1) * 40 + 1 * (y 0).val = (y 0).val; omega

/-- Entry `(r, q)` of point `t`'s output block sits at `(2000·t + r, q)` of the output array. -/
theorem oemb (t : Fin cfg1.N) (r : Fin 2000) (q : Fin 40) :
    ((cfg1.win 6).blk t).view.emb (ix2 r q)
      = ix2 (⟨t.val * 2000 + r.val, by have := point_lt t; have := r.isLt; omega⟩ : Fin 50000) q := by
  obtain ⟨-, -, -, -, -, -, -, -, -, -, e0, e1⟩ := idx_facts t
  refine funext fun a => Fin.ext ?_
  match a with
  | ⟨0, _⟩ => show win1_6.index t (0 : Fin 2) * 2000 + 1 * r.val = t.val * 2000 + r.val; omega
  | ⟨1, _⟩ => show win1_6.index t (1 : Fin 2) * 40 + 1 * q.val = q.val; omega

/-- What point `t` writes back is block `t` of `G`. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz2]
  simp only [View.ld_unit_zero (S := S2000x128) hz2, View.ld_unit_zero (S := S1x128) hz2, View.ld_unit_zero (S := S1) hz1,
    View.ld_unit_zero (S := S128x40) hz2, View.ld_unit_zero (S := S40) hz1]
  rw [Tile.pay1_eq, ablk V c t, bblk V c t, wblk V c t, cblk V c t]
  exact layerLin_blocks_fun (V c main_v45) (V c main_v58) (V c main_v60) (V c main_arg7) (V c main_v59) (V c main_arg9)
    (iblk1 V c 0 t) (iblk1 V c 1 t) (t.val * 2000) (by have := point_lt t; omega)
    (fun r k => xblk V c t r k) (fun r k => zblk V c t r k)
    (((cfg1.win 6).blk t).view.emb) (fun r q => oemb t r q)

/-- An index of the output array is in point `t`'s block iff each coordinate is in the block's range on its axis. -/
theorem mem_blk (t : Fin cfg1.N) (i : S50000x40.Idx) :
    i ∈ ((cfg1.win 6).blk t).view.set ↔ ∀ a : Fin 2, win1_6.index t a * S2000x40.size a ≤ (i a).val ∧ (i a).val < win1_6.index t a * S2000x40.size a + S2000x40.size a := by
  show i ∈ ((View.whole main_v61).slice (win1_6.rect t)).set ↔ _
  rw [View.set_slice_whole, Rect.mem_set_unit]
  exact Iff.rfl

/-- The 25 blocks cover the array: row `ρ` is in the block of point `ρ / 2000`. -/
theorem cover (i : S50000x40.Idx) : ∃ t : Fin cfg1.N, (cfg1.win 6).flush t = true ∧ i ∈ ((cfg1.win 6).blk t).view.set := by
  have hi0 : (i 0).val < 50000 := (i 0).isLt
  have hi1 : (i 1).val < 40 := (i 1).isLt
  have hN : cfg1.N = 25 := N_1
  let t : Fin cfg1.N := ⟨(i 0).val / 2000, by rw [hN]; omega⟩
  have htv : t.val = (i 0).val / 2000 := rfl
  obtain ⟨-, -, -, -, -, -, -, -, -, -, e0, e1⟩ := idx_facts t
  refine ⟨t, flush1_6 t, ?_⟩
  rw [mem_blk]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 40 ≤ (i 1).val ∧ (i 1).val < win1_6.index t (1 : Fin 2) * 40 + 40; omega

/-- After the launch the output array is the layer function of the arrays at the launch's entry. -/
theorem final (c : Dev nD) : (dat1 V c).arrAt 6 cfg1.N = G V c :=
  (dat1 V c).arrAt_eq_of_cover 6 (G V c) (fun t _ => flushed_eq V c t) (cover)

end Cert.KernelIdeal.Region1

end
-- ==== Proof.RefLayers.lean ====
/-
  The reference, layer by layer. Its two layers are stages of one host program: the gate is a matrix product of the
  node array with the gate vector (a column), plus the bias, through `1 / (1 + e^(−t))`; the mixed rows are the
  gate's share of the aggregated array plus the complementary share of the difference; the output is the product
  with the transposed weights plus the bias, rectified in the first layer. Read at an entry `(p, c)`, each stage is
  the row formula of the specification, so each layer is the layer function on the 50000 rows. The aggregated
  arrays (a scatter-add of gathered, weighted rows) are kept as they stand: both programs compute them by the same
  operations. The gate vector enters as a column here and as a row in the kernels; a transposed column read at
  `(0, k)` is the column at `(k, 0)`.
-/
import proofs.«167398_j10213432229977_1_alg».proof.Proof.RefReadP
import proofs.«167398_j10213432229977_1_alg».proof.Proof.MixSpec
import Idealize.ShloMosaic.Lib.IdealHost

noncomputable section

open scoped BigOperators

namespace Cert.ReferenceIdeal.Layers

open Idealize.ShloMosaic Idealize.ShloMosaic.ValueIdx Cert.ReferenceIdeal Cert.ReferenceIdeal.Read Cert.Mix

/-! ## Layer 1 -/

section Layer1

variable (x0 : (⟨S50000x128, .f32⟩ : BufTy).Contents (Elt Ideal)) (x1 : (⟨S2x600000, .i32⟩ : BufTy).Contents (Elt Ideal)) (x2 : (⟨S128x1, .f32⟩ : BufTy).Contents (Elt Ideal)) (x3 : (⟨S1, .f32⟩ : BufTy).Contents (Elt Ideal)) (x4 : (⟨S128x128, .f32⟩ : BufTy).Contents (Elt Ideal)) (x5 : (⟨S128, .f32⟩ : BufTy).Contents (Elt Ideal))

/-- The gate column: the logistic function — spelt as one over one plus the exponential of the negation — of the row's
    inner product with the gate vector plus the bias. -/
theorem gate1_ref (p : Fin 50000) :
    val_main_v39 (F := Ideal) x0 x2 x3 (ix2 p (0 : Fin 1))
      = gate (fun k => x0 (ix2 p k)) (fun k => x2 (ix2 k (0 : Fin 1))) (x3 (ix1 (0 : Fin 1))) := by
  rw [val_main_v39_apply, val_main_v38_apply, val_main_cst_7_apply, val_main_v37_apply, val_main_v36_apply,
    val_main_cst_6_apply, val_main_v35_apply, val_main_v34_apply, val_main_v33_apply, val_main_v30_apply,
    val_main_v32_apply, val_main_v31_apply]
  have e1 : ∀ k : Fin 128, lidx_main_v30 (ix2 p (0 : Fin 1)) k = ix2 p k := fun k =>
    funext fun a => Fin.ext (by match a with | ⟨0, _⟩ => rfl | ⟨1, _⟩ => rfl)
  have e2 : ∀ k : Fin 128, ridx_main_v30 (ix2 p (0 : Fin 1)) k = ix2 k (0 : Fin 1) := fun k =>
    funext fun a => Fin.ext (by match a with | ⟨0, _⟩ => rfl | ⟨1, _⟩ => rfl)
  have e3 : idx_main_v31 (idx_main_v32 (ix2 p (0 : Fin 1))) = ix1 (0 : Fin 1) :=
    funext fun a => Fin.ext (by match a with | ⟨0, _⟩ => rfl)
  rw [e3]
  show Ideal.div (Ideal.ofBits .f32 0x3F800000#32) (Ideal.ofBits .f32 0x3F800000#32 + Ideal.exp (-((∑ k : Fin 128, _) + x3 (ix1 (0 : Fin 1)))))
      = Ideal.div 1 (1 + Ideal.exp (-((∑ k : Fin 128, x0 (ix2 p k) * x2 (ix2 k (0 : Fin 1))) + x3 (ix1 (0 : Fin 1)))))
  rw [Ideal.ofBits_one_f32]
  refine congrArg (fun s => Ideal.div 1 (1 + Ideal.exp (-(s + x3 (ix1 (0 : Fin 1)))))) (Finset.sum_congr rfl fun k _ => ?_)
  rw [e1, e2]

/-- The mixed rows. -/
theorem mixed1_ref (p : Fin 50000) (k : Fin 128) :
    val_main_v60 (F := Ideal) x0 x1 x2 x3 (ix2 p k)
      = mixed (fun k => x0 (ix2 p k)) (fun k => val_main_v52 (F := Ideal) x0 x1 (ix2 p k)) (fun k => x2 (ix2 k (0 : Fin 1))) (x3 (ix1 (0 : Fin 1))) k := by
  rw [val_main_v60_apply, val_main_v55_apply, val_main_v59_apply, val_main_v54_apply, val_main_v58_apply,
    val_main_v57_apply, val_main_v56_apply, val_main_cst_11_apply, val_main_v53_apply]
  have e : idx_main_v54 (ix2 p k) = ix2 p (0 : Fin 1) :=
    funext fun a => Fin.ext (by match a with | ⟨0, _⟩ => rfl | ⟨1, _⟩ => rfl)
  have e' : idx_main_v58 (ix2 p k) = ix2 p (0 : Fin 1) :=
    funext fun a => Fin.ext (by match a with | ⟨0, _⟩ => rfl | ⟨1, _⟩ => rfl)
  rw [e, e', gate1_ref]
  rfl

/-- The whole layer: the reference's stage is the layer function of the node array, the aggregated array, the gate
    vector laid as a row, the gate bias, the transposed weights and the bias. -/
theorem layer1_ref (h : (⟨2, ![128, 1]⟩ : Shape).Transposes [1, 0] ⟨2, ![1, 128]⟩) :
    val_main_v66 (F := Ideal) x0 x1 x2 x3 x4 x5
      = layerRelu 50000 (x0) (val_main_v52 (F := Ideal) x0 x1) (transpose ⟨2, ![1, 128]⟩ [1, 0] x2 h) x3 (val_main_v61 (F := Ideal) x4) x5 := by
  funext j
  obtain ⟨p, c, rfl⟩ : ∃ (p : Fin 50000) (c : Fin 128), j = ix2 p c := ⟨j 0, j 1, eq_ix2 j⟩
  rw [layerRelu_ix2]
  rw [val_main_v66_apply, val_main_v65_apply, val_main_v62_apply, val_main_v64_apply, val_main_v63_apply, val_main_call1_v0_apply, val_main_call1_cst_apply]
  have e1 : ∀ k : Fin 128, lidx_main_v62 (ix2 p c) k = ix2 p k := fun k =>
    funext fun a => Fin.ext (by match a with | ⟨0, _⟩ => rfl | ⟨1, _⟩ => rfl)
  have e2 : ∀ k : Fin 128, ridx_main_v62 (ix2 p c) k = ix2 k c := fun k =>
    funext fun a => Fin.ext (by match a with | ⟨0, _⟩ => rfl | ⟨1, _⟩ => rfl)
  have e3 : idx_main_v63 (idx_main_v64 (ix2 p c)) = ix1 c :=
    funext fun a => Fin.ext (by match a with | ⟨0, _⟩ => rfl)
  rw [e3]
  unfold affine
  refine congrArg (fun s => max (s + x5 (ix1 c)) zero) (Finset.sum_congr rfl fun k _ => ?_)
  rw [e1, e2, mixed1_ref]
  have ht : ∀ k : Fin 128, transpose ⟨2, ![1, 128]⟩ [1, 0] x2 h (ix2 (0 : Fin 1) k) = x2 (ix2 k (0 : Fin 1)) :=
    fun k => transpose_ix2_apply (a := 128) (b := 1) x2 h 0 k
  simp only [ht]

end Layer1

/-! ## Layer 2 -/

section Layer2

variable (x0 : (⟨S50000x128, .f32⟩ : BufTy).Contents (Elt Ideal)) (x1 : (⟨S2x600000, .i32⟩ : BufTy).Contents (Elt Ideal)) (x2 : (⟨S128x1, .f32⟩ : BufTy).Contents (Elt Ideal)) (x3 : (⟨S1, .f32⟩ : BufTy).Contents (Elt Ideal)) (x4 : (⟨S128x128, .f32⟩ : BufTy).Contents (Elt Ideal)) (x5 : (⟨S128, .f32⟩ : BufTy).Contents (Elt Ideal)) (x6 : (⟨S128x1, .f32⟩ : BufTy).Contents (Elt Ideal)) (x7 : (⟨S1, .f32⟩ : BufTy).Contents (Elt Ideal)) (x8 : (⟨S40x128, .f32⟩ : BufTy).Contents (Elt Ideal)) (x9 : (⟨S40, .f32⟩ : BufTy).Contents (Elt Ideal))

/-- The gate column: the logistic function — spelt as one over one plus the exponential of the negation — of the row's
    inner product with the gate vector plus the bias. -/
theorem gate2_ref (p : Fin 50000) :
    val_main_v76 (F := Ideal) x0 x1 x2 x3 x4 x5 x6 x7 (ix2 p (0 : Fin 1))
      = gate (fun k => val_main_v66 (F := Ideal) x0 x1 x2 x3 x4 x5 (ix2 p k)) (fun k => x6 (ix2 k (0 : Fin 1))) (x7 (ix1 (0 : Fin 1))) := by
  rw [val_main_v76_apply, val_main_v75_apply, val_main_cst_13_apply, val_main_v74_apply, val_main_v73_apply,
    val_main_cst_12_apply, val_main_v72_apply, val_main_v71_apply, val_main_v70_apply, val_main_v67_apply,
    val_main_v69_apply, val_main_v68_apply]
  have e1 : ∀ k : Fin 128, lidx_main_v67 (ix2 p (0 : Fin 1)) k = ix2 p k := fun k =>
    funext fun a => Fin.ext (by match a with | ⟨0, _⟩ => rfl | ⟨1, _⟩ => rfl)
  have e2 : ∀ k : Fin 128, ridx_main_v67 (ix2 p (0 : Fin 1)) k = ix2 k (0 : Fin 1) := fun k =>
    funext fun a => Fin.ext (by match a with | ⟨0, _⟩ => rfl | ⟨1, _⟩ => rfl)
  have e3 : idx_main_v68 (idx_main_v69 (ix2 p (0 : Fin 1))) = ix1 (0 : Fin 1) :=
    funext fun a => Fin.ext (by match a with | ⟨0, _⟩ => rfl)
  rw [e3]
  show Ideal.div (Ideal.ofBits .f32 0x3F800000#32) (Ideal.ofBits .f32 0x3F800000#32 + Ideal.exp (-((∑ k : Fin 128, _) + x7 (ix1 (0 : Fin 1)))))
      = Ideal.div 1 (1 + Ideal.exp (-((∑ k : Fin 128, val_main_v66 (F := Ideal) x0 x1 x2 x3 x4 x5 (ix2 p k) * x6 (ix2 k (0 : Fin 1))) + x7 (ix1 (0 : Fin 1)))))
  rw [Ideal.ofBits_one_f32]
  refine congrArg (fun s => Ideal.div 1 (1 + Ideal.exp (-(s + x7 (ix1 (0 : Fin 1)))))) (Finset.sum_congr rfl fun k _ => ?_)
  rw [e1, e2]

/-- The mixed rows. -/
theorem mixed2_ref (p : Fin 50000) (k : Fin 128) :
    val_main_v97 (F := Ideal) x0 x1 x2 x3 x4 x5 x6 x7 (ix2 p k)
      = mixed (fun k => val_main_v66 (F := Ideal) x0 x1 x2 x3 x4 x5 (ix2 p k)) (fun k => val_main_v89 (F := Ideal) x0 x1 x2 x3 x4 x5 (ix2 p k)) (fun k => x6 (ix2 k (0 : Fin 1))) (x7 (ix1 (0 : Fin 1))) k := by
  rw [val_main_v97_apply, val_main_v92_apply, val_main_v96_apply, val_main_v91_apply, val_main_v95_apply,
    val_main_v94_apply, val_main_v93_apply, val_main_cst_17_apply, val_main_v90_apply]
  have e : idx_main_v91 (ix2 p k) = ix2 p (0 : Fin 1) :=
    funext fun a => Fin.ext (by match a with | ⟨0, _⟩ => rfl | ⟨1, _⟩ => rfl)
  have e' : idx_main_v95 (ix2 p k) = ix2 p (0 : Fin 1) :=
    funext fun a => Fin.ext (by match a with | ⟨0, _⟩ => rfl | ⟨1, _⟩ => rfl)
  rw [e, e', gate2_ref]
  rfl

/-- The whole layer: the reference's stage is the layer function of the node array, the aggregated array, the gate
    vector laid as a row, the gate bias, the transposed weights and the bias. -/
theorem layer2_ref (h : (⟨2, ![128, 1]⟩ : Shape).Transposes [1, 0] ⟨2, ![1, 128]⟩) :
    val_main_v102 (F := Ideal) x0 x1 x2 x3 x4 x5 x6 x7 x8 x9
      = layerLin 50000 (val_main_v66 (F := Ideal) x0 x1 x2 x3 x4 x5) (val_main_v89 (F := Ideal) x0 x1 x2 x3 x4 x5) (transpose ⟨2, ![1, 128]⟩ [1, 0] x6 h) x7 (val_main_v98 (F := Ideal) x8) x9 := by
  funext j
  obtain ⟨p, c, rfl⟩ : ∃ (p : Fin 50000) (c : Fin 40), j = ix2 p c := ⟨j 0, j 1, eq_ix2 j⟩
  rw [layerLin_ix2]
  rw [val_main_v102_apply, val_main_v99_apply, val_main_v101_apply, val_main_v100_apply]
  have e1 : ∀ k : Fin 128, lidx_main_v99 (ix2 p c) k = ix2 p k := fun k =>
    funext fun a => Fin.ext (by match a with | ⟨0, _⟩ => rfl | ⟨1, _⟩ => rfl)
  have e2 : ∀ k : Fin 128, ridx_main_v99 (ix2 p c) k = ix2 k c := fun k =>
    funext fun a => Fin.ext (by match a with | ⟨0, _⟩ => rfl | ⟨1, _⟩ => rfl)
  have e3 : idx_main_v100 (idx_main_v101 (ix2 p c)) = ix1 c :=
    funext fun a => Fin.ext (by match a with | ⟨0, _⟩ => rfl)
  rw [e3]
  unfold affine
  refine congrArg (fun s => s + x9 (ix1 c)) (Finset.sum_congr rfl fun k _ => ?_)
  rw [e1, e2, mixed2_ref]
  have ht : ∀ k : Fin 128, transpose ⟨2, ![1, 128]⟩ [1, 0] x6 h (ix2 (0 : Fin 1) k) = x6 (ix2 k (0 : Fin 1)) :=
    fun k => transpose_ix2_apply (a := 128) (b := 1) x6 h 0 k
  simp only [ht]

end Layer2

end Cert.ReferenceIdeal.Layers

end
-- ==== Proof.Bridge.lean ====
/-
  The two programs compute one function.

  Write `x₀ … x₉` for the ten arguments. The kernel program's contents at its boundaries are a fold: host operations,
  the first launch, host operations, the second launch. Read through that fold:
    * an argument is never written, so it is still the launched array at every boundary;
    * the aggregated array the first launch reads, the gate vector laid as a row and the transposed weights are the
      same host operations, applied to the same arguments, as the reference's stages of those names — the terms agree
      operation by operation;
    * the first launch leaves the rectified layer function of those arrays, which is the reference's first layer;
    * the second stretch aggregates that output by the same operations as the reference aggregates its first layer's
      output, and the second launch leaves the second layer function of it: the reference's result.
-/
import proofs.«167398_j10213432229977_1_alg».proof.Proof.KernelRun
import proofs.«167398_j10213432229977_1_alg».proof.Proof.Region0
import proofs.«167398_j10213432229977_1_alg».proof.Proof.Region1
import proofs.«167398_j10213432229977_1_alg».proof.Proof.RefLayers
import Idealize.ShloMosaic.Lib.StableHlo.Run

set_option maxRecDepth 16384

noncomputable section

namespace Cert.Bridge

open Idealize.ShloMosaic Idealize.ShloMosaic.TcCoe Idealize.ShloMosaic.ValueIdx Idealize.ShloMosaic.StableHlo
open Idealize.SL Idealize.SL.Sem
open Cert.KernelIdeal Cert.KernelIdeal.Gen Cert.Mix
open Cert.ReferenceIdeal.Read (val_main_v3 val_main_v6 val_main_v29 val_main_v52 val_main_v61 val_main_v66 val_main_v89 val_main_v98 val_main_v102)

variable (m : (ℓ : Loc nD τ sig) → Buf (Elt Ideal) ℓ) (ρ : Dev nD → PrngReg) (c : Dev nD)

/-! ### The typed references of the outlined `where` are plain references: their transports are the identity -/

theorem tb_v14 (v : (⟨S50000, .f32⟩ : BufTy).Contents (Elt Ideal)) : (TRef.of (sig := sig) (T := ⟨S50000, .f32⟩) main_v14).toBuf v = v := rfl
theorem ob_v12 (v : (⟨S50000, .i1⟩ : BufTy).Contents (Elt Ideal)) : (TRef.of (sig := sig) (T := ⟨S50000, .i1⟩) main_v12).ofBuf v = v := rfl
theorem ob_v13 (v : (⟨S50000, .f32⟩ : BufTy).Contents (Elt Ideal)) : (TRef.of (sig := sig) (T := ⟨S50000, .f32⟩) main_v13).ofBuf v = v := rfl
theorem ob_w1 (v : (⟨S50000, .f32⟩ : BufTy).Contents (Elt Ideal)) : (TRef.of (sig := sig) (T := ⟨S50000, .f32⟩) main_call0_v1).ofBuf v = v := rfl
theorem tb_w1 (v : (⟨S50000, .f32⟩ : BufTy).Contents (Elt Ideal)) : (TRef.of (sig := sig) (T := ⟨S50000, .f32⟩) main_call0_v1).toBuf v = v := rfl
theorem ob_w0 (v : (⟨S_, .f32⟩ : BufTy).Contents (Elt Ideal)) : (TRef.of (sig := sig) (T := ⟨S_, .f32⟩) main_call0_v0).ofBuf v = v := rfl
theorem tb_w0 (v : (⟨S_, .f32⟩ : BufTy).Contents (Elt Ideal)) : (TRef.of (sig := sig) (T := ⟨S_, .f32⟩) main_call0_v0).toBuf v = v := rfl
theorem ob_c2 (v : (⟨S_, .f32⟩ : BufTy).Contents (Elt Ideal)) : (TRef.of (sig := sig) (T := ⟨S_, .f32⟩) main_cst_2).ofBuf v = v := rfl

/-! ## The arguments at the first launch's entry -/

theorem entry0_arg0 : V3 m ρ c main_arg0 = m ((c : Thread nD τ).loc main_arg0) := by
  show StableHlo.after hostOps0_2 (StableHlo.after hostOps0_1 (StableHlo.after hostOps0 (W0 m ρ c))) (Proc.devRef .tc main_arg0) = _
  simp only [hostOps0_2, hostOps0_1, hostOps0]
  after_results_simp <;> rfl

theorem entry0_arg3 : V3 m ρ c main_arg3 = m ((c : Thread nD τ).loc main_arg3) := by
  show StableHlo.after hostOps0_2 (StableHlo.after hostOps0_1 (StableHlo.after hostOps0 (W0 m ρ c))) (Proc.devRef .tc main_arg3) = _
  simp only [hostOps0_2, hostOps0_1, hostOps0]
  after_results_simp <;> rfl

theorem entry0_arg5 : V3 m ρ c main_arg5 = m ((c : Thread nD τ).loc main_arg5) := by
  show StableHlo.after hostOps0_2 (StableHlo.after hostOps0_1 (StableHlo.after hostOps0 (W0 m ρ c))) (Proc.devRef .tc main_arg5) = _
  simp only [hostOps0_2, hostOps0_1, hostOps0]
  after_results_simp <;> rfl

/-! ## The shared host chain before the first launch -/

/-- The edge rows with the self loops appended. -/
theorem rows_eq : W3 m ρ c (Proc.devRef .tc main_v3) = val_main_v3 (F := Ideal) (m ((c : Thread nD τ).loc main_arg1)) := by
  show StableHlo.after hostOps0_2 (StableHlo.after hostOps0_1 (StableHlo.after hostOps0 (W0 m ρ c))) (Proc.devRef .tc main_v3) = _
  simp only [hostOps0_2, hostOps0_1, hostOps0]
  after_results_simp <;> rfl

/-- The edge columns with the self loops appended. -/
theorem cols_eq : W3 m ρ c (Proc.devRef .tc main_v6) = val_main_v6 (F := Ideal) (m ((c : Thread nD τ).loc main_arg1)) := by
  show StableHlo.after hostOps0_2 (StableHlo.after hostOps0_1 (StableHlo.after hostOps0 (W0 m ρ c))) (Proc.devRef .tc main_v6) = _
  simp only [hostOps0_2, hostOps0_1, hostOps0]
  after_results_simp <;> rfl

/-- The normalised edge weights. -/
theorem weights_eq : W3 m ρ c (Proc.devRef .tc main_v29) = val_main_v29 (F := Ideal) (m ((c : Thread nD τ).loc main_arg1)) := by
  show StableHlo.after hostOps0_2 (StableHlo.after hostOps0_1 (StableHlo.after hostOps0 (W0 m ρ c))) (Proc.devRef .tc main_v29) = _
  simp only [hostOps0_2, hostOps0_1, hostOps0]
  after_results_simp
  simp only [tb_v14, ob_v12, ob_v13, ob_w1, tb_w1, ob_w0, tb_w0, ob_c2]
  rfl

/-- The first aggregated array. -/
theorem agg1_eq : V3 m ρ c main_v42
    = val_main_v52 (F := Ideal) (m ((c : Thread nD τ).loc main_arg0)) (m ((c : Thread nD τ).loc main_arg1)) := by
  show StableHlo.after hostOps0_2 (StableHlo.after hostOps0_1 (StableHlo.after hostOps0 (W0 m ρ c))) (Proc.devRef .tc main_v42) = _
  simp only [hostOps0_2, hostOps0_1, hostOps0]
  after_results_simp
  simp only [tb_v14, ob_v12, ob_v13, ob_w1, tb_w1, ob_w0, tb_w0, ob_c2]
  rfl

/-- The first layer's weights, transposed. -/
theorem wT1_eq : V3 m ρ c main_v43 = val_main_v61 (F := Ideal) (m ((c : Thread nD τ).loc main_arg4)) := by
  show StableHlo.after hostOps0_2 (StableHlo.after hostOps0_1 (StableHlo.after hostOps0 (W0 m ρ c))) (Proc.devRef .tc main_v43) = _
  simp only [hostOps0_2, hostOps0_1, hostOps0]
  after_results_simp <;> rfl

/-- The first layer's gate vector, laid as a row. -/
theorem aT1_eq : V3 m ρ c main_v44
    = transpose ⟨2, ![1, 128]⟩ [1, 0] (m ((c : Thread nD τ).loc main_arg2)) transposes_S128x1_S1x128_1_0 := by
  show StableHlo.after hostOps0_2 (StableHlo.after hostOps0_1 (StableHlo.after hostOps0 (W0 m ρ c))) (Proc.devRef .tc main_v44) = _
  simp only [hostOps0_2, hostOps0_1, hostOps0]
  after_results_simp <;> rfl

/-! ## The first launch's output is the reference's first layer -/

theorem hidden_eq : W4 m ρ c (Proc.devRef .tc main_v45)
    = val_main_v66 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W4_arr m ρ c 6).trans ((Region0.final (V3 m ρ) c).trans ?_)
  show layerRelu 50000 (V3 m ρ c main_arg0) (V3 m ρ c main_v42) (V3 m ρ c main_v44) (V3 m ρ c main_arg3) (V3 m ρ c main_v43) (V3 m ρ c main_arg5) = _
  rw [entry0_arg0, agg1_eq, aT1_eq, entry0_arg3, wT1_eq, entry0_arg5]
  exact (Cert.ReferenceIdeal.Layers.layer1_ref _ _ _ _ _ _ _).symm

/-! ## The arguments after the first launch (it writes none of them) -/

theorem w4_arg6 : W4 m ρ c (Proc.devRef .tc main_arg6) = m ((c : Thread nD τ).loc main_arg6) := by
  rw [W4_of_ne m ρ c main_arg6 (by decide)]
  show StableHlo.after hostOps0_2 (StableHlo.after hostOps0_1 (StableHlo.after hostOps0 (W0 m ρ c))) (Proc.devRef .tc main_arg6) = _
  simp only [hostOps0_2, hostOps0_1, hostOps0]
  after_results_simp <;> rfl

theorem w4_arg7 : W4 m ρ c (Proc.devRef .tc main_arg7) = m ((c : Thread nD τ).loc main_arg7) := by
  rw [W4_of_ne m ρ c main_arg7 (by decide)]
  show StableHlo.after hostOps0_2 (StableHlo.after hostOps0_1 (StableHlo.after hostOps0 (W0 m ρ c))) (Proc.devRef .tc main_arg7) = _
  simp only [hostOps0_2, hostOps0_1, hostOps0]
  after_results_simp <;> rfl

theorem w4_arg8 : W4 m ρ c (Proc.devRef .tc main_arg8) = m ((c : Thread nD τ).loc main_arg8) := by
  rw [W4_of_ne m ρ c main_arg8 (by decide)]
  show StableHlo.after hostOps0_2 (StableHlo.after hostOps0_1 (StableHlo.after hostOps0 (W0 m ρ c))) (Proc.devRef .tc main_arg8) = _
  simp only [hostOps0_2, hostOps0_1, hostOps0]
  after_results_simp <;> rfl

theorem w4_arg9 : W4 m ρ c (Proc.devRef .tc main_arg9) = m ((c : Thread nD τ).loc main_arg9) := by
  rw [W4_of_ne m ρ c main_arg9 (by decide)]
  show StableHlo.after hostOps0_2 (StableHlo.after hostOps0_1 (StableHlo.after hostOps0 (W0 m ρ c))) (Proc.devRef .tc main_arg9) = _
  simp only [hostOps0_2, hostOps0_1, hostOps0]
  after_results_simp <;> rfl

/-! ## The second stretch: the same aggregation, of the first launch's output -/

theorem entry1_hidden : V5 m ρ c main_v45 = val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps1 (W4 m ρ c) (Proc.devRef .tc main_v45) = _
  simp only [hostOps1]
  after_results_simp
  exact hidden_eq m ρ c

theorem entry1_arg7 : V5 m ρ c main_arg7 = m ((c : Thread nD τ).loc main_arg7) := by
  show StableHlo.after hostOps1 (W4 m ρ c) (Proc.devRef .tc main_arg7) = _
  simp only [hostOps1]
  after_results_simp
  exact w4_arg7 m ρ c

theorem entry1_arg9 : V5 m ρ c main_arg9 = m ((c : Thread nD τ).loc main_arg9) := by
  show StableHlo.after hostOps1 (W4 m ρ c) (Proc.devRef .tc main_arg9) = _
  simp only [hostOps1]
  after_results_simp
  exact w4_arg9 m ρ c

/-- The second aggregated array. -/
theorem agg2_eq : V5 m ρ c main_v58 = val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps1 (W4 m ρ c) (Proc.devRef .tc main_v58) = _
  simp only [hostOps1]
  after_results_simp
  rw [hidden_eq, W4_of_ne m ρ c main_v29 (by decide), W4_of_ne m ρ c main_v6 (by decide), W4_of_ne m ρ c main_v3 (by decide),
    weights_eq, cols_eq, rows_eq]
  rfl

/-- The second layer's weights, transposed. -/
theorem wT2_eq : V5 m ρ c main_v59 = val_main_v98 (F := Ideal) (m ((c : Thread nD τ).loc main_arg8)) := by
  show StableHlo.after hostOps1 (W4 m ρ c) (Proc.devRef .tc main_v59) = _
  simp only [hostOps1]
  after_results_simp
  rw [w4_arg8]
  rfl

/-- The second layer's gate vector, laid as a row. -/
theorem aT2_eq : V5 m ρ c main_v60
    = transpose ⟨2, ![1, 128]⟩ [1, 0] (m ((c : Thread nD τ).loc main_arg6)) transposes_S128x1_S1x128_1_0 := by
  show StableHlo.after hostOps1 (W4 m ρ c) (Proc.devRef .tc main_v60) = _
  simp only [hostOps1]
  after_results_simp
  rw [w4_arg6]

/-! ## The result -/

/-- The kernel program's result array ends holding the reference's result term of the arguments. -/
theorem result_eq : W6 m ρ c (Proc.devRef .tc main_v61) = val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W6_arr m ρ c 6).trans ((Region1.final (V5 m ρ) c).trans ?_)
  show layerLin 50000 (V5 m ρ c main_v45) (V5 m ρ c main_v58) (V5 m ρ c main_v60) (V5 m ρ c main_arg7) (V5 m ρ c main_v59) (V5 m ρ c main_arg9) = _
  rw [entry1_hidden, agg2_eq, aT2_eq, entry1_arg7, wT2_eq, entry1_arg9]
  exact (Cert.ReferenceIdeal.Layers.layer2_ref _ _ _ _ _ _ _ _ _ _ _).symm

end Cert.Bridge

end
-- ==== Proof.lean ====
/-
  A two-layer graph network with an adaptive mix of a low-pass and a high-pass aggregation, as a tiled kernel program
  against its plain reference, on the extended reals.

  Both programs build the normalised adjacency weights and the aggregated array `z = S x` by the same host operations
  (a scatter-add of gathered, weighted rows). Per layer, for each node row: the gate `g = logistic (x · a + β)`, the
  mixed row `g z + (1 − g) (x − z)`, and its affine image under the layer's weights (rectified in the first layer).
  The kernel program computes this 2000 rows at a time, the gate by a lane sum and the product by a matrix unit fed
  through a narrower format; the reference computes it on all 50000 rows by matrix products. On the extended reals a
  change of format is the identity and `logistic t` is `1 / (1 + e^(−t))`, so row by row both are the same formula in
  the same grouping, and no finiteness of the inputs is used.

  The pieces: `MixSpec` (the formulas), `Payload` (a grid step is the formula on its rows), `Region0` / `Region1` (the
  25 row blocks tile the array), `KernelRun` (the program's run, every buffer read), `RefLayers` (the reference's stages
  are the formulas), `Bridge` (the boundary contents of the kernel program are the reference's stages).
-/
import proofs.«167398_j10213432229977_1_alg».proof.Defs
import proofs.«167398_j10213432229977_1_alg».proof.Proof.Gen.Kernel
import proofs.«167398_j10213432229977_1_alg».proof.Proof.Gen.Kernel.Frame
import proofs.«167398_j10213432229977_1_alg».proof.Proof.Gen.KernelIdeal
import proofs.«167398_j10213432229977_1_alg».proof.Proof.Gen.KernelIdeal.Frame
import proofs.«167398_j10213432229977_1_alg».proof.Proof.Gen.ReferenceIdeal
import proofs.«167398_j10213432229977_1_alg».proof.Proof.Gen.Pre_finite_inputs
import proofs.«167398_j10213432229977_1_alg».proof.Proof.RefRunP
import proofs.«167398_j10213432229977_1_alg».proof.Proof.RefReadP
import proofs.«167398_j10213432229977_1_alg».proof.Proof.KernelRun
import proofs.«167398_j10213432229977_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program terminates, faults nowhere and leaves its arguments unchanged. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- So does the reference: its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments, both programs end with the reference's result term of the arguments:
    the kernel program by the bridge, the reference by its own run. -/
theorem algebraic : Cert.algebraic_KernelIdeal_ReferenceIdeal := by
  intro m ρ m' ρ' _ hagree
  refine ⟨fun c => Cert.ReferenceIdeal.Read.val_main_v102 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · refine (θ_run Cert.KernelIdeal.defs _ _).mono (fun r h c => ⟨?_, ?_, ?_, ?_, ?_, ?_, ?_, ?_, ?_, ?_, ?_⟩) (Cert.KernelIdeal.Whole.run_mem (F := Ideal) m ρ)
    · exact (h c _ Cert.KernelIdeal.Whole.result_mem).trans (Cert.Bridge.result_eq m ρ c)
    · exact (h c _ (Cert.KernelIdeal.Gen.mem_uc Cert.KernelIdeal.main_arg0 (by decide))).trans (Cert.KernelIdeal.Gen.W6_main_arg0 m ρ c)
    · exact (h c _ (Cert.KernelIdeal.Gen.mem_uc Cert.KernelIdeal.main_arg1 (by decide))).trans (Cert.KernelIdeal.Gen.W6_main_arg1 m ρ c)
    · exact (h c _ (Cert.KernelIdeal.Gen.mem_uc Cert.KernelIdeal.main_arg2 (by decide))).trans (Cert.KernelIdeal.Gen.W6_main_arg2 m ρ c)
    · exact (h c _ (Cert.KernelIdeal.Gen.mem_uc Cert.KernelIdeal.main_arg3 (by decide))).trans (Cert.KernelIdeal.Gen.W6_main_arg3 m ρ c)
    · exact (h c _ (Cert.KernelIdeal.Gen.mem_uc Cert.KernelIdeal.main_arg4 (by decide))).trans (Cert.KernelIdeal.Gen.W6_main_arg4 m ρ c)
    · exact (h c _ (Cert.KernelIdeal.Gen.mem_uc Cert.KernelIdeal.main_arg5 (by decide))).trans (Cert.KernelIdeal.Gen.W6_main_arg5 m ρ c)
    · exact (h c _ (Cert.KernelIdeal.Gen.mem_uc Cert.KernelIdeal.main_arg6 (by decide))).trans (Cert.KernelIdeal.Gen.W6_main_arg6 m ρ c)
    · exact (h c _ (Cert.KernelIdeal.Gen.mem_uc Cert.KernelIdeal.main_arg7 (by decide))).trans (Cert.KernelIdeal.Gen.W6_main_arg7 m ρ c)
    · exact (h c _ (Cert.KernelIdeal.Gen.mem_uc Cert.KernelIdeal.main_arg8 (by decide))).trans (Cert.KernelIdeal.Gen.W6_main_arg8 m ρ c)
    · exact (h c _ (Cert.KernelIdeal.Gen.mem_uc Cert.KernelIdeal.main_arg9 (by decide))).trans (Cert.KernelIdeal.Gen.W6_main_arg9 m ρ c)
  · refine (θ_run Cert.ReferenceIdeal.defs _ _).mono (fun r h c => ⟨?_, (h c).2⟩) (Cert.ReferenceIdeal.Value.run (F := Ideal) m' ρ')
    rw [(h c).1, Cert.ReferenceIdeal.Read.val_main_v102_eq]
    obtain ⟨a0, a1, a2, a3, a4, a5, a6, a7, a8, a9⟩ := hagree c
    rw [a0, a1, a2, a3, a4, a5, a6, a7, a8, a9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
